-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_1536" .f32 0x3A2AAAAB#32 ((1 / 1536 : ℝ) : EReal)
  ∧ IdealRules.named_const.Statement Cert.KernelIdeal.κ "inv_1536" .f32 0x3A2AAAAB#32 ((1 / 1536 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x768 : Shape := ⟨3, ![4, 4096, 768]⟩
abbrev S1536 : Shape := ⟨1, ![1536]⟩
abbrev S2x1536 : Shape := ⟨2, ![2, 1536]⟩
abbrev S2 : Shape := ⟨1, ![2]⟩
abbrev S_ : Shape := ⟨0, ![]⟩

class Facts : Prop where
  bcast_S_S4x4096x768 : S_.BroadcastsInDim S4x4096x768 (![] : Fin 0 → Fin S4x4096x768.rank)
  reducesTo_S4x4096x768_S_d0_1_2 : S4x4096x768.ReducesTo [0, 1, 2] S_
  h_S_ : 0 < S_.numel
  bcast_S_S1536 : S_.BroadcastsInDim S1536 (![] : Fin 0 → Fin S1536.rank)
  reducesTo_S1536_S_d0 : S1536.ReducesTo [0] S_
  bcast_S_S2x1536 : S_.BroadcastsInDim S2x1536 (![] : Fin 0 → Fin S2x1536.rank)
  reducesTo_S2x1536_S_d0_1 : S2x1536.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2x1536 .f32) (main_arg5 : FVec F S2 .f32) (main_v13 : IVec S_ 1) (main_v16 : IVec S1536 1) : IVec S_ 1 :=
  let main_c_5 : IVec S_ 1 := constantI S_ 1 1#1
  let main_v17 : IVec S_ 1 := (fun x v => Host.reduce IntOp.andi x v reducesTo_S1536_S_d0 h_S_) main_v16 main_c_5
  let main_v18 : IVec S_ 1 := andi main_v13 main_v17
  let main_v19 : FVec F S2x1536 .f32 := Host.absf main_arg4
  let main_cst_6 : FVec F S_ .f32 := constant S_ .f32 0x7F800000#32
  let main_v20 : FVec F S2x1536 .f32 := broadcastInDim S2x1536 ![] bcast_S_S2x1536 main_cst_6
  let main_v21 : IVec S2x1536 1 := cmpf .olt main_v19 main_v20
  let main_c_7 : IVec S_ 1 := constantI S_ 1 1#1
  let main_v22 : IVec S_ 1 := (fun x v => Host.reduce IntOp.andi x v reducesTo_S2x1536_S_d0_1 h_S_) main_v21 main_c_7
  let main_v23 : IVec S_ 1 := andi main_v18 main_v22
  let main_v24 : FVec F S2 .f32 := Host.absf main_arg5
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  main_v28

def fn {F : FTy → Type} [FloatOps F] (main_arg0 : FVec F S4x4096x768 .f32) (main_arg1 : FVec F S4x4096x768 .f32) (main_arg2 : FVec F S1536 .f32) (main_arg3 : FVec F S1536 .f32) (main_arg4 : FVec F S2x1536 .f32) (main_arg5 : FVec F S2 .f32) : IVec S_ 1 :=
  let main_v0 : FVec F S4x4096x768 .f32 := Host.absf main_arg0
  let main_cst : FVec F S_ .f32 := constant S_ .f32 0x7F800000#32
  let main_v1 : FVec F S4x4096x768 .f32 := broadcastInDim S4x4096x768 ![] bcast_S_S4x4096x768 main_cst
  let main_v2 : IVec S4x4096x768 1 := cmpf .olt main_v0 main_v1
  let main_c : IVec S_ 1 := constantI S_ 1 1#1
  let main_v3 : IVec S_ 1 := (fun x v => Host.reduce IntOp.andi x v reducesTo_S4x4096x768_S_d0_1_2 h_S_) main_v2 main_c
  let main_v4 : FVec F S4x4096x768 .f32 := Host.absf main_arg1
  let main_cst_0 : FVec F S_ .f32 := constant S_ .f32 0x7F800000#32
  let main_v5 : FVec F S4x4096x768 .f32 := broadcastInDim S4x4096x768 ![] bcast_S_S4x4096x768 main_cst_0
  let main_v6 : IVec S4x4096x768 1 := cmpf .olt main_v4 main_v5
  let main_c_1 : IVec S_ 1 := constantI S_ 1 1#1
  let main_v7 : IVec S_ 1 := (fun x v => Host.reduce IntOp.andi x v reducesTo_S4x4096x768_S_d0_1_2 h_S_) main_v6 main_c_1
  let main_v8 : IVec S_ 1 := andi main_v3 main_v7
  let main_v9 : FVec F S1536 .f32 := Host.absf main_arg2
  let main_cst_2 : FVec F S_ .f32 := constant S_ .f32 0x7F800000#32
  let main_v10 : FVec F S1536 .f32 := broadcastInDim S1536 ![] bcast_S_S1536 main_cst_2
  let main_v11 : IVec S1536 1 := cmpf .olt main_v9 main_v10
  let main_c_3 : IVec S_ 1 := constantI S_ 1 1#1
  let main_v12 : IVec S_ 1 := (fun x v => Host.reduce IntOp.andi x v reducesTo_S1536_S_d0 h_S_) main_v11 main_c_3
  let main_v13 : IVec S_ 1 := andi main_v8 main_v12
  let main_v14 : FVec F S1536 .f32 := Host.absf main_arg3
  let main_cst_4 : FVec F S_ .f32 := constant S_ .f32 0x7F800000#32
  let main_v15 : FVec F S1536 .f32 := broadcastInDim S1536 ![] bcast_S_S1536 main_cst_4
  let main_v16 : IVec S1536 1 := cmpf .olt main_v14 main_v15
  fn_part1 (F := F) main_arg4 main_arg5 main_v13 main_v16
-- ==== Kernel.lean ====
abbrev S4x4096x768 : Shape := ⟨3, ![4, 4096, 768]⟩
abbrev S1536 : Shape := ⟨1, ![1536]⟩
abbrev S2x1536 : Shape := ⟨2, ![2, 1536]⟩
abbrev S2 : Shape := ⟨1, ![2]⟩
abbrev S16384x768 : Shape := ⟨2, ![16384, 768]⟩
abbrev S2x768 : Shape := ⟨2, ![2, 768]⟩
abbrev S4x768 : Shape := ⟨2, ![4, 768]⟩
abbrev S1x2 : Shape := ⟨2, ![1, 2]⟩
abbrev S2048x768 : Shape := ⟨2, ![2048, 768]⟩
abbrev S1x768 : Shape := ⟨2, ![1, 768]⟩
abbrev S1 : Shape := ⟨1, ![1]⟩
abbrev S1x1 : Shape := ⟨2, ![1, 1]⟩
abbrev S2048 : Shape := ⟨1, ![2048]⟩
abbrev S2048x1 : Shape := ⟨2, ![2048, 1]⟩

abbrev nBuf : Space → Nat
  | .hbm => 14
  | .vmem => 10
  | .smem => 0
  | _ => 0

abbrev bufTy : (tb : Table) → Fin (tcTables nBuf tb) → BufTy
  | .hbm, ⟨0, _⟩ => ⟨S4x4096x768, .f32⟩
  | .hbm, ⟨1, _⟩ => ⟨S4x4096x768, .f32⟩
  | .hbm, ⟨2, _⟩ => ⟨S1536, .f32⟩
  | .hbm, ⟨3, _⟩ => ⟨S1536, .f32⟩
  | .hbm, ⟨4, _⟩ => ⟨S2x1536, .f32⟩
  | .hbm, ⟨5, _⟩ => ⟨S2, .f32⟩
  | .hbm, ⟨6, _⟩ => ⟨S16384x768, .f32⟩
  | .hbm, ⟨7, _⟩ => ⟨S16384x768, .f32⟩
  | .hbm, ⟨8, _⟩ => ⟨S2x768, .f32⟩
  | .hbm, ⟨9, _⟩ => ⟨S2x768, .f32⟩
  | .hbm, ⟨10, _⟩ => ⟨S4x768, .f32⟩
  | .hbm, ⟨11, _⟩ => ⟨S1x2, .f32⟩
  | .hbm, ⟨12, _⟩ => ⟨S16384x768, .f32⟩
  | .hbm, ⟨13, _⟩ => ⟨S4x4096x768, .f32⟩
  | .local _ .vmem, ⟨0, _⟩ => ⟨S2048x768, .f32⟩
  | .local _ .vmem, ⟨1, _⟩ => ⟨S2048x768, .f32⟩
  | .local _ .vmem, ⟨2, _⟩ => ⟨S2048x768, .f32⟩
  | .local _ .vmem, ⟨3, _⟩ => ⟨S2048x768, .f32⟩
  | .local _ .vmem, ⟨4, _⟩ => ⟨S4x768, .f32⟩
  | .local _ .vmem, ⟨5, _⟩ => ⟨S2x768, .f32⟩
  | .local _ .vmem, ⟨6, _⟩ => ⟨S2x768, .f32⟩
  | .local _ .vmem, ⟨7, _⟩ => ⟨S1x2, .f32⟩
  | .local _ .vmem, ⟨8, _⟩ => ⟨S2048x768, .f32⟩
  | .local _ .vmem, ⟨9, _⟩ => ⟨S2048x768, .f32⟩
  | _, _ => ⟨S4x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2048x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S4x4096x768_S16384x768 : S4x4096x768.ShapeCasts S16384x768
  shapeCasts_S1536_S2x768 : S1536.ShapeCasts S2x768
  shapeCasts_S2x1536_S4x768 : S2x1536.ShapeCasts S4x768
  shapeCasts_S2_S1x2 : S2.ShapeCasts S1x2
  shapeCasts_S16384x768_S4x4096x768 : S16384x768.ShapeCasts S4x4096x768
  inb_S2x768_S2x768_0_0 : ∀ a, (![0, 0] : Fin 2 → Nat) a + S2x768.size a ≤ S2x768.size a
  h_S2x768 : 0 < S2x768.numel
  shapeCasts_S2x768_S2x768 : S2x768.ShapeCasts S2x768
  inb_S4x768_S4x768_0_0 : ∀ a, (![0, 0] : Fin 2 → Nat) a + S4x768.size a ≤ S4x768.size a
  h_S4x768 : 0 < S4x768.numel
  shapeCasts_S4x768_S4x768 : S4x768.ShapeCasts S4x768
  slices_S2x768_o0_0_S1x768 : S2x768.Slices ![0, 0] S1x768
  slices_S4x768_o0_0_S1x768 : S4x768.Slices ![0, 0] S1x768
  slices_S4x768_o2_0_S1x768 : S4x768.Slices ![2, 0] S1x768
  slices_S2x768_o1_0_S1x768 : S2x768.Slices ![1, 0] S1x768
  slices_S4x768_o1_0_S1x768 : S4x768.Slices ![1, 0] S1x768
  slices_S4x768_o3_0_S1x768 : S4x768.Slices ![3, 0] S1x768
  reduces_S1x768_S1 : S1x768.Reduces [1] S1
  shapeCasts_S1_S1x1 : S1.ShapeCasts S1x1
  inb_S1x2_S1x1_0_0 : ∀ a, (![0, 0] : Fin 2 → Nat) a + S1x1.size a ≤ S1x2.size a
  h_S1x1 : 0 < S1x1.numel
  shapeCasts_S1x1_S1x1 : S1x1.ShapeCasts S1x1
  inb_S1x2_S1x1_0_1 : ∀ a, (![0, 1] : Fin 2 → Nat) a + S1x1.size a ≤ S1x2.size a
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  reduces_S2048x768_S2048 : S2048x768.Reduces [1] S2048
  shapeCasts_S2048_S2048x1 : S2048.ShapeCasts S2048x1
  broadcasts_S1x768_S2048x768 : S1x768.Broadcasts S2048x768
  broadcasts_S1x1_S2048x1 : S1x1.Broadcasts S2048x1
  broadcasts_S2048x1_S2048x768 : S2048x1.Broadcasts S2048x768
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S16384x768.size a
  hwx0_0 : ∀ i : grid0.Coords, EltTy.bits .f32 = 32 ∨ (Rect.block (s := S16384x768) S2048x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x768.size a ≤ S16384x768.size a
  hwx0_1 : ∀ i : grid0.Coords, EltTy.bits .f32 = 32 ∨ (Rect.block (s := S16384x768) S2048x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x768.size a ≤ S4x768.size a
  hwx0_2 : ∀ i : grid0.Coords, EltTy.bits .f32 = 32 ∨ (Rect.block (s := S4x768) S4x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x768.size a ≤ S2x768.size a
  hwx0_3 : ∀ i : grid0.Coords, EltTy.bits .f32 = 32 ∨ (Rect.block (s := S2x768) S2x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x768.size a ≤ S2x768.size a
  hwx0_4 : ∀ i : grid0.Coords, EltTy.bits .f32 = 32 ∨ (Rect.block (s := S2x768) S2x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2.size a ≤ S1x2.size a
  hwx0_5 : ∀ i : grid0.Coords, EltTy.bits .f32 = 32 ∨ (Rect.block (s := S1x2) S1x2.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2048x768.size a ≤ S16384x768.size a
  hwx0_6 : ∀ i : grid0.Coords, EltTy.bits .f32 = 32 ∨ (Rect.block (s := S16384x768) S2048x768.size (cc0_transform_6 i) (hinb0_6 i)).WholeWords (EltTy.packing .f32)

variable [Facts₀]

abbrev win0_0 : Pipeline.Window sig grid0 :=
  Pipeline.Window.ofSpec (Memref.whole main_call0_v0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S2048x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v4) S4x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S2x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v3) S2x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v5) S1x2.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v6) S2048x768.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4x4096x768 : Shape := ⟨3, ![4, 4096, 768]⟩
abbrev S1536 : Shape := ⟨1, ![1536]⟩
abbrev S2x1536 : Shape := ⟨2, ![2, 1536]⟩
abbrev S2 : Shape := ⟨1, ![2]⟩
abbrev S4x4096x1536 : Shape := ⟨3, ![4, 4096, 1536]⟩
abbrev S_ : Shape := ⟨0, ![]⟩
abbrev S4x4096 : Shape := ⟨2, ![4, 4096]⟩
abbrev S4x4096x1 : Shape := ⟨3, ![4, 4096, 1]⟩
abbrev S1x1x1536 : Shape := ⟨3, ![1, 1, 1536]⟩
abbrev S4x4096x2 : Shape := ⟨3, ![4, 4096, 2]⟩
abbrev S1x1x2 : Shape := ⟨3, ![1, 1, 2]⟩

abbrev nBuf : Space → Nat
  | .hbm => 61
  | .vmem => 0
  | .smem => 0
  | _ => 0

abbrev bufTy : (tb : Table) → Fin (tcTables nBuf tb) → BufTy
  | .hbm, ⟨0, _⟩ => ⟨S4x4096x768, .f32⟩
  | .hbm, ⟨1, _⟩ => ⟨S4x4096x768, .f32⟩
  | .hbm, ⟨2, _⟩ => ⟨S1536, .f32⟩
  | .hbm, ⟨3, _⟩ => ⟨S1536, .f32⟩
  | .hbm, ⟨4, _⟩ => ⟨S2x1536, .f32⟩
  | .hbm, ⟨5, _⟩ => ⟨S2, .f32⟩
  | .hbm, ⟨6, _⟩ => ⟨S4x4096x1536, .f32⟩
  | .hbm, ⟨7, _⟩ => ⟨S_, .f32⟩
  | .hbm, ⟨8, _⟩ => ⟨S4x4096, .f32⟩
  | .hbm, ⟨9, _⟩ => ⟨S4x4096x1, .f32⟩
  | .hbm, ⟨10, _⟩ => ⟨S_, .f32⟩
  | .hbm, ⟨11, _⟩ => ⟨S4x4096x1, .f32⟩
  | .hbm, ⟨12, _⟩ => ⟨S4x4096x1, .f32⟩
  | .hbm, ⟨13, _⟩ => ⟨S4x4096x1536, .f32⟩
  | .hbm, ⟨14, _⟩ => ⟨S4x4096x1536, .f32⟩
  | .hbm, ⟨15, _⟩ => ⟨S4x4096x1536, .f32⟩
  | .hbm, ⟨16, _⟩ => ⟨S_, .f32⟩
  | .hbm, ⟨17, _⟩ => ⟨S4x4096, .f32⟩
  | .hbm, ⟨18, _⟩ => ⟨S4x4096x1, .f32⟩
  | .hbm, ⟨19, _⟩ => ⟨S_, .f32⟩
  | .hbm, ⟨20, _⟩ => ⟨S4x4096x1, .f32⟩
  | .hbm, ⟨21, _⟩ => ⟨S4x4096x1, .f32⟩
  | .hbm, ⟨22, _⟩ => ⟨S4x4096x1536, .f32⟩
  | .hbm, ⟨23, _⟩ => ⟨S4x4096x1536, .f32⟩
  | .hbm, ⟨24, _⟩ => ⟨S_, .f32⟩
  | .hbm, ⟨25, _⟩ => ⟨S4x4096x1, .f32⟩
  | .hbm, ⟨26, _⟩ => ⟨S4x4096x1, .f32⟩
  | .hbm, ⟨27, _⟩ => ⟨S4x4096x1, .f32⟩
  | .hbm, ⟨28, _⟩ => ⟨S4x4096x1536, .f32⟩
  | .hbm, ⟨29, _⟩ => ⟨S4x4096x1536, .f32⟩
  | .hbm, ⟨30, _⟩ => ⟨S1x1x1536, .f32⟩
  | .hbm, ⟨31, _⟩ => ⟨S4x4096x1536, .f32⟩
  | .hbm, ⟨32, _⟩ => ⟨S4x4096x1536, .f32⟩
  | .hbm, ⟨33, _⟩ => ⟨S1x1x1536, .f32⟩
  | .hbm, ⟨34, _⟩ => ⟨S4x4096x1536, .f32⟩
  | .hbm, ⟨35, _⟩ => ⟨S4x4096x1536, .f32⟩
  | .hbm, ⟨36, _⟩ => ⟨S4x4096x2, .f32⟩
  | .hbm, ⟨37, _⟩ => ⟨S1x1x2, .f32⟩
  | .hbm, ⟨38, _⟩ => ⟨S4x4096x2, .f32⟩
  | .hbm, ⟨39, _⟩ => ⟨S4x4096x2, .f32⟩
  | .hbm, ⟨40, _⟩ => ⟨S_, .f32⟩
  | .hbm, ⟨41, _⟩ => ⟨S4x4096, .f32⟩
  | .hbm, ⟨42, _⟩ => ⟨S_, .f32⟩
  | .hbm, ⟨43, _⟩ => ⟨S4x4096, .f32⟩
  | .hbm, ⟨44, _⟩ => ⟨S4x4096, .f32⟩
  | .hbm, ⟨45, _⟩ => ⟨S4x4096x1, .f32⟩
  | .hbm, ⟨46, _⟩ => ⟨S4x4096x2, .f32⟩
  | .hbm, ⟨47, _⟩ => ⟨S4x4096x2, .f32⟩
  | .hbm, ⟨48, _⟩ => ⟨S4x4096x2, .f32⟩
  | .hbm, ⟨49, _⟩ => ⟨S_, .f32⟩
  | .hbm, ⟨50, _⟩ => ⟨S4x4096, .f32⟩
  | .hbm, ⟨51, _⟩ => ⟨S4x4096x1, .f32⟩
  | .hbm, ⟨52, _⟩ => ⟨S4x4096x2, .f32⟩
  | .hbm, ⟨53, _⟩ => ⟨S4x4096x2, .f32⟩
  | .hbm, ⟨54, _⟩ => ⟨S4x4096x1, .f32⟩
  | .hbm, ⟨55, _⟩ => ⟨S4x4096x768, .f32⟩
  | .hbm, ⟨56, _⟩ => ⟨S4x4096x768, .f32⟩
  | .hbm, ⟨57, _⟩ => ⟨S4x4096x1, .f32⟩
  | .hbm, ⟨58, _⟩ => ⟨S4x4096x768, .f32⟩
  | .hbm, ⟨59, _⟩ => ⟨S4x4096x768, .f32⟩
  | .hbm, ⟨60, _⟩ => ⟨S4x4096x768, .f32⟩
  | _, _ => ⟨S4x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩

abbrev nD : Nat := 1
abbrev τ : Topo := Topo.v7x

variable {F : FTy → Type} [FloatOps F]

class Facts₀ : Prop where
  concatenates_S4x4096x768_S4x4096x768_S4x4096x1536_d2 : Shape.Concatenates [S4x4096x768, S4x4096x768] S4x4096x1536 2
  reducesTo_S4x4096x1536_S4x4096_d2 : S4x4096x1536.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x1536_0_1_2 : S4x4096x1.BroadcastsInDim S4x4096x1536 (![0, 1, 2] : Fin 3 → Fin S4x4096x1536.rank)
  bcast_S1536_S1x1x1536_2 : S1536.BroadcastsInDim S1x1x1536 (![2] : Fin 1 → Fin S1x1x1536.rank)
  bcast_S1x1x1536_S4x4096x1536_0_1_2 : S1x1x1536.BroadcastsInDim S4x4096x1536 (![0, 1, 2] : Fin 3 → Fin S4x4096x1536.rank)
  bcast_S2_S1x1x2_2 : S2.BroadcastsInDim S1x1x2 (![2] : Fin 1 → Fin S1x1x2.rank)
  bcast_S1x1x2_S4x4096x2_0_1_2 : S1x1x2.BroadcastsInDim S4x4096x2 (![0, 1, 2] : Fin 3 → Fin S4x4096x2.rank)
  reducesTo_S4x4096x2_S4x4096_d2 : S4x4096x2.ReducesTo [2] S4x4096
  bcast_S_S4x4096 : S_.BroadcastsInDim S4x4096 (![] : Fin 0 → Fin S4x4096.rank)
  bcast_S4x4096x1_S4x4096x2_0_1_2 : S4x4096x1.BroadcastsInDim S4x4096x2 (![0, 1, 2] : Fin 3 → Fin S4x4096x2.rank)
  slices_S4x4096x2_S4x4096x1_0_0_0 : S4x4096x2.Slices ![0, 0, 0] S4x4096x1
  bcast_S4x4096x1_S4x4096x768_0_1_2 : S4x4096x1.BroadcastsInDim S4x4096x768 (![0, 1, 2] : Fin 3 → Fin S4x4096x768.rank)
  slices_S4x4096x2_S4x4096x1_0_0_1 : S4x4096x2.Slices ![0, 0, 1] S4x4096x1
  dot_S4x4096x1536_S2x1536_S4x4096x2_2_1_01_0_n_n_wf : DotDims.WF S4x4096x1536 S2x1536 S4x4096x2 [2] [1] [0, 1] [0] [] []

variable [Facts₀]

def dot_S4x4096x1536_S2x1536_S4x4096x2_2_1_01_0_n_n : DotDims S4x4096x1536 S2x1536 S4x4096x2 where
  lhsContracting := [2]
  rhsContracting := [1]
  lhsNonContracting := [0, 1]
  rhsNonContracting := [0]
  lhsBatch := []
  rhsBatch := []
  wf := dot_S4x4096x1536_S2x1536_S4x4096x2_2_1_01_0_n_n_wf

class Facts : Prop extends Facts₀ where

variable [Facts]
-- ==== Proof.LibKeepdims.lean ====
/-
  Reading the "keep the reduced axis as a unit axis" operations at an index.

  A sum over the last axis of an `[a, b]` array, kept as an `[a, 1]` column, is met as three operations: the lane
  sum to `[a]`, the cast `[a] → [a, 1]`, and later a broadcast of the column (or of a `[1, 1]` scalar) back over
  rows or lanes.  Each lemma reads one of them at an index built from coordinates.
-/
import Idealize.ShloMosaic.Lib.Pipeline.Value
import Idealize.ShloMosaic.Lib.ValueIdx
import Idealize.ShloMosaic.Lib.ValueLayout
import Idealize.ShloMosaic.PureOps.Ideal.Laws

noncomputable section

namespace Idealize.ShloMosaic.Keepdims

open Idealize.ShloMosaic Idealize.ShloMosaic.ValueIdx

variable {α : Type}

/-- The lane sum of an `[a, b]` array into the zero accumulator, at row `r`, is the sum of the row's entries. -/
theorem rowSum_apply {a b : ℕ} (v : FVec Ideal ⟨2, ![a, b]⟩ .f32) (h : (⟨2, ![a, b]⟩ : Shape).Reduces [1] ⟨1, ![a]⟩)
    (hacc : (0x00000000#32 : BitVec 32) = 0x00000000#32) (r : Fin a) :
    multiReduction .add [1] ⟨1, ![a]⟩ v 0x00000000#32 h (.inl rfl) hacc (ix1 r) = ∑ k : Fin b, v (ix2 r k) :=
  (Ideal.multiReduction_add_single v 0x00000000#32 h (.inl rfl) hacc (ix1 r)).trans
    (Finset.sum_congr rfl fun k _ => congrArg v (funext fun ax => Fin.ext (by
      match ax with
      | ⟨0, _⟩ => rfl
      | ⟨1, _⟩ => rfl)))

/-- An `[a]` array cast to the column `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `b` lanes reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- A `[1, 1]` scalar broadcast down a column `[a, 1]` reads, at `(r, u)`, the scalar. -/
theorem broadcastTo_11_a1_apply {a : ℕ} (v : (⟨2, ![1, 1]⟩ : Shape).Idx → α) (h : (⟨2, ![1, 1]⟩ : Shape).Broadcasts ⟨2, ![a, 1]⟩)
    (r : Fin a) (u : Fin 1) : broadcastTo ⟨2, ![a, 1]⟩ v h (ix2 r u) = v (ix2 (0 : Fin 1) (0 : Fin 1)) := by
  refine broadcastTo_apply v h (ix2 r u) (ix2 (0 : Fin 1) (0 : Fin 1)) fun ax => ?_
  match ax with
  | ⟨0, _⟩ => rfl
  | ⟨1, _⟩ => rfl

end Idealize.ShloMosaic.Keepdims

end
-- ==== Proof.Rows.lean ====
/-
  The two programs, one output row at a time, as functions on the extended reals.

  A row of the output depends on one row `s` of the first feature array, the same row `m` of the second, and the
  small parameter arrays.  Write `h = s ++ m` for the joined row of length 1536.

  * `kernelRow`: the fused form.  The joined row's mean and mean square come from the two halves' sums times the
    reciprocal `inv` of the length; the two-class softmax is the logistic function of the logit DIFFERENCE, which is
    affine in the normalised row, so only the direction `g ⊙ (W₀ − W₁)` (split in its two halves `dws`, `dwm`), its
    sum `da` and the constant `dcb` are needed; the result is `m + σ(dl) · (s − m)`.
  * `refRow`: the textbook form.  Mean and variance of `h` by two passes with a quotient by `n`, the normalised
    row scaled and shifted, both logits, a softmax shifted by the larger logit, and the blend `w₀ · s + w₁ · m`.

  Over finite reals the two agree (module RowAlgebra).
-/
import Idealize.ShloMosaic.PureOps.Ideal

noncomputable section

namespace Cert.Fusion

open Idealize.ShloMosaic

/-- The fused row: entry `j` of `m + σ((t − mean · da) · rstd + dcb) · (s − m)`. -/
def kernelRow (inv eps : EReal) (s m gs gm bs bm a0s a0m a1s a1m : Fin 768 → EReal) (b0 b1 : EReal)
    (j : Fin 768) : EReal :=
  let dws : Fin 768 → EReal := fun k => gs k * (a0s k - a1s k)
  let dwm : Fin 768 → EReal := fun k => gm k * (a0m k - a1m k)
  let da : EReal := (∑ k, dws k) + (∑ k, dwm k)
  let dcb : EReal := ((∑ k, bs k * (a0s k - a1s k)) + (∑ k, bm k * (a0m k - a1m k))) + (b0 - b1)
  let mean : EReal := ((∑ k, s k) + (∑ k, m k)) * inv
  let msq : EReal := ((∑ k, s k * s k) + (∑ k, m k * m k)) * inv
  let rstd : EReal := Ideal.rsqrt ((msq - mean * mean) + eps)
  let t : EReal := (∑ k, s k * dws k) + (∑ k, m k * dwm k)
  m j + Ideal.logistic ((t - mean * da) * rstd + dcb) * (s j - m j)

/-- The reference row: the blend of `sj` and `mj` by the softmax of the two logits of the normalised joined row `h`. -/
def refRow (z n eps ninf : EReal) (h g bt : Fin 1536 → EReal) (W : Fin 2 → Fin 1536 → EReal) (bias : Fin 2 → EReal)
    (sj mj : EReal) : EReal :=
  let mean : EReal := Ideal.div (z + ∑ k, h k) n
  let var : EReal := Ideal.div (z + ∑ k, (h k - mean) * (h k - mean)) n
  let rstd : EReal := Ideal.rsqrt (var + eps)
  let hn : Fin 1536 → EReal := fun k => (h k - mean) * rstd * g k + bt k
  let l : Fin 2 → EReal := fun c => (∑ k, hn k * W c k) + bias c
  let mx : EReal := max ninf ((Finset.univ : Finset (Fin 2)).fold max ninf l)
  let e : Fin 2 → EReal := fun c => Ideal.exp (l c - mx)
  let Z : EReal := z + ∑ c, e c
  Ideal.div (e 0) Z * sj + Ideal.div (e 1) Z * mj

end Cert.Fusion

end
-- ==== Proof.KernelPayload.lean ====
/-
  The fused body's arithmetic at one entry of a block.

  The body reads a block `s` of 2048 rows of the first feature array, the matching block `m` of the second, and
  the three small parameter arrays whole: the gate weights `w` as four rows (class 0 over the first half, class 0
  over the second half, class 1 over the first half, class 1 over the second half), the scale `g` and the shift `bt`
  as two rows (first half, second half), and the two gate biases.  Its one store is, at row `r` and lane `j`,
  `Cert.Fusion.kernelRow` of row `r` of the two blocks: the direction vectors `g ⊙ (w₀ − w₁)` per half, their
  total, the constant `bt · (w₀ − w₁) + (b₀ − b₁)`, the row's moments through the six lane sums, and the blend.
-/
import proofs.«161193_g12695923327142_feedfinal_59_5_alg».proof.Proof.Gen.KernelIdeal.Frame
import proofs.«161193_g12695923327142_feedfinal_59_5_alg».proof.Proof.LibKeepdims
import proofs.«161193_g12695923327142_feedfinal_59_5_alg».proof.Proof.Rows

noncomputable section

namespace Cert.Fusion.Kernel

open Idealize.ShloMosaic Idealize.ShloMosaic.ValueIdx Idealize.ShloMosaic.Keepdims Cert.KernelIdeal Cert.KernelIdeal.Gen

/-- The first-half direction: scale row 0 times (class-0 weights − class-1 weights) over the first half. -/
theorem dirS_apply (g : FVec Ideal S2x768 .f32) (w : FVec Ideal S4x768 .f32) (k : Fin 768) :
    k0_pay3 (F := Ideal) g w (ix2 (0 : Fin 1) k)
      = g (ix2 (0 : Fin 2) k) * (w (ix2 (0 : Fin 4) k) - w (ix2 (2 : Fin 4) k)) := by
  unfold k0_pay3 k0_pay1 k0_pay2
  dsimp only
  rw [mulf_apply, subf_apply,
    slice2_axis0_apply 0 _ _ (0 : Fin 1) k (0 : Fin 2) rfl, slice2_axis0_apply 0 _ _ (0 : Fin 1) k (0 : Fin 4) rfl,
    slice2_axis0_apply 2 _ _ (0 : Fin 1) k (2 : Fin 4) rfl, shapeCast_self, shapeCast_self]

/-- The second-half direction: scale row 1 times (class-0 weights − class-1 weights) over the second half. -/
theorem dirM_apply (g : FVec Ideal S2x768 .f32) (w : FVec Ideal S4x768 .f32) (k : Fin 768) :
    k0_pay4 (F := Ideal) g w (ix2 (0 : Fin 1) k)
      = g (ix2 (1 : Fin 2) k) * (w (ix2 (1 : Fin 4) k) - w (ix2 (3 : Fin 4) k)) := by
  unfold k0_pay4 k0_pay1 k0_pay2
  dsimp only
  rw [mulf_apply, subf_apply,
    slice2_axis0_apply 1 _ _ (0 : Fin 1) k (1 : Fin 2) rfl, slice2_axis0_apply 1 _ _ (0 : Fin 1) k (1 : Fin 4) rfl,
    slice2_axis0_apply 3 _ _ (0 : Fin 1) k (3 : Fin 4) rfl, shapeCast_self, shapeCast_self]

/-- The total of the two directions. -/
theorem dirSum_apply (g : FVec Ideal S2x768 .f32) (w : FVec Ideal S4x768 .f32) :
    k0_pay5 (F := Ideal) g w (ix2 (0 : Fin 1) (0 : Fin 1))
      = (∑ k : Fin 768, g (ix2 (0 : Fin 2) k) * (w (ix2 (0 : Fin 4) k) - w (ix2 (2 : Fin 4) k)))
        + (∑ k : Fin 768, g (ix2 (1 : Fin 2) k) * (w (ix2 (1 : Fin 4) k) - w (ix2 (3 : Fin 4) k))) := by
  unfold k0_pay5
  dsimp only
  rw [addf_apply, shapeCast_a_a1_apply, shapeCast_a_a1_apply, rowSum_apply, rowSum_apply]
  simp only [dirS_apply, dirM_apply]

/-- The constant of the logit difference: shift · (class-0 weights − class-1 weights) over both halves, plus the
    difference of the two biases. -/
theorem biasTerm_apply (bt : FVec Ideal S2x768 .f32) (w : FVec Ideal S4x768 .f32) (c0 c1 : FVec Ideal S1x1 .f32) :
    k0_pay6 (F := Ideal) bt w c0 c1 (ix2 (0 : Fin 1) (0 : Fin 1))
      = ((∑ k : Fin 768, bt (ix2 (0 : Fin 2) k) * (w (ix2 (0 : Fin 4) k) - w (ix2 (2 : Fin 4) k)))
          + (∑ k : Fin 768, bt (ix2 (1 : Fin 2) k) * (w (ix2 (1 : Fin 4) k) - w (ix2 (3 : Fin 4) k))))
        + (c0 (ix2 (0 : Fin 1) (0 : Fin 1)) - c1 (ix2 (0 : Fin 1) (0 : Fin 1))) := by
  unfold k0_pay6 k0_pay2
  dsimp only
  rw [addf_apply, addf_apply, subf_apply, shapeCast_a_a1_apply, shapeCast_a_a1_apply, rowSum_apply, rowSum_apply]
  simp only [shapeCast_self]
  refine congrArg₂ (· + ·) (congrArg₂ (· + ·) (Finset.sum_congr rfl fun k _ => ?_) (Finset.sum_congr rfl fun k _ => ?_)) rfl
  · rw [mulf_apply, subf_apply,
      slice2_axis0_apply 0 _ _ (0 : Fin 1) k (0 : Fin 2) rfl, slice2_axis0_apply 0 _ _ (0 : Fin 1) k (0 : Fin 4) rfl,
      slice2_axis0_apply 2 _ _ (0 : Fin 1) k (2 : Fin 4) rfl]
  · rw [mulf_apply, subf_apply,
      slice2_axis0_apply 1 _ _ (0 : Fin 1) k (1 : Fin 2) rfl, slice2_axis0_apply 1 _ _ (0 : Fin 1) k (1 : Fin 4) rfl,
      slice2_axis0_apply 3 _ _ (0 : Fin 1) k (3 : Fin 4) rfl]

/-- A vector reciprocal square root, read at an index. -/
theorem rsqrt_apply {s : Shape} {φ : FTy} (a : FVec Ideal s φ) (i : s.Idx) : rsqrt a i = Ideal.rsqrt (a i) := rfl
/-- A vector logistic function, read at an index. -/
theorem logistic_apply {s : Shape} {φ : FTy} (a : FVec Ideal s φ) (i : s.Idx) : logistic a i = Ideal.logistic (a i) := rfl

/-- The stored block at row `r`, lane `j`, from the two feature blocks and the four prepared quantities: the six lane
    sums of row `r`, the row's mean and mean square by the named reciprocal of the joined length, the reciprocal
    standard deviation, the logit difference, its logistic weight, and the blend of the two entries. -/
theorem block_apply (ds dm : FVec Ideal S1x768 .f32) (da dcb : FVec Ideal S1x1 .f32) (s m : FVec Ideal S2048x768 .f32)
    (r : Fin 2048) (j : Fin 768) :
    k0_pay7 (F := Ideal) ds dm da dcb s m (ix2 r j)
      = m (ix2 r j) + Ideal.logistic
          ((((∑ k : Fin 768, s (ix2 r k) * ds (ix2 (0 : Fin 1) k)) + (∑ k : Fin 768, m (ix2 r k) * dm (ix2 (0 : Fin 1) k)))
              - (((∑ k : Fin 768, s (ix2 r k)) + (∑ k : Fin 768, m (ix2 r k))) * Named.named (F := Ideal) κ "inv_1536" (φ := .f32) 0x3A2AAAAB#32)
                * da (ix2 (0 : Fin 1) (0 : Fin 1)))
            * Ideal.rsqrt
                (((((∑ k : Fin 768, s (ix2 r k) * s (ix2 r k)) + (∑ k : Fin 768, m (ix2 r k) * m (ix2 r k)))
                      * Named.named (F := Ideal) κ "inv_1536" (φ := .f32) 0x3A2AAAAB#32)
                    - (((∑ k : Fin 768, s (ix2 r k)) + (∑ k : Fin 768, m (ix2 r k))) * Named.named (F := Ideal) κ "inv_1536" (φ := .f32) 0x3A2AAAAB#32)
                      * (((∑ k : Fin 768, s (ix2 r k)) + (∑ k : Fin 768, m (ix2 r k))) * Named.named (F := Ideal) κ "inv_1536" (φ := .f32) 0x3A2AAAAB#32))
                  + Ideal.ofBits .f32 0x3727C5AC#32)
            + dcb (ix2 (0 : Fin 1) (0 : Fin 1)))
          * (s (ix2 r j) - m (ix2 r j)) := by
  unfold k0_pay7
  dsimp only
  simp only [addf_apply, mulf_apply, subf_apply, rsqrt_apply, logistic_apply, broadcast_apply, shapeCast_self,
    broadcastTo_a1_ab_apply, broadcastTo_11_a1_apply, shapeCast_a_a1_apply]
  rw [rowSum_apply, rowSum_apply, rowSum_apply, rowSum_apply, rowSum_apply, rowSum_apply]
  simp only [mulf_apply, broadcastTo_1b_ab_apply]
  rfl

end Cert.Fusion.Kernel

end
-- ==== Proof.KernelOut.lean ====
/-
  What the body leaves in the output block, entry by entry.

  The body's single store covers the whole 2048 × 768 block, so the block after the body is the stored value; at
  row `r` and lane `j` it is `Cert.Fusion.kernelRow` of row `r` of the two feature blocks and of the parameter
  blocks (the two gate biases being the two entries of the 1 × 2 bias block).
-/
import proofs.«161193_g12695923327142_feedfinal_59_5_alg».proof.Proof.Gen.KernelIdeal.Frame
import proofs.«161193_g12695923327142_feedfinal_59_5_alg».proof.Proof.LibKeepdims
import proofs.«161193_g12695923327142_feedfinal_59_5_alg».proof.Proof.Rows
import proofs.«161193_g12695923327142_feedfinal_59_5_alg».proof.Proof.KernelPayload

noncomputable section

namespace Cert.Fusion.Kernel

open Idealize.ShloMosaic Idealize.ShloMosaic.ValueIdx Idealize.ShloMosaic.Keepdims Cert.KernelIdeal Cert.KernelIdeal.Gen

/-- The zero offset of a rank-2 rectangle. -/
theorem off_zero : (![0, 0] : Fin 2 → Nat) = fun _ => 0 := funext fun a => by fin_cases a <;> rfl

/-- The first bias: the 1 × 1 load at offset (0, 0) of the 1 × 2 bias block. -/
theorem bias0_apply (x5 : Vec Ideal S1x2 .f32) :
    View.ld x5 r0_2 (ix2 (0 : Fin 1) (0 : Fin 1)) = x5 (ix2 (0 : Fin 1) (0 : Fin 2)) :=
  congrArg x5 (funext fun a => Fin.ext (by
    match a with
    | ⟨0, _⟩ => rfl
    | ⟨1, _⟩ => rfl))

/-- The second bias: the 1 × 1 load at offset (0, 1). -/
theorem bias1_apply (x5 : Vec Ideal S1x2 .f32) :
    View.ld x5 r0_3 (ix2 (0 : Fin 1) (0 : Fin 1)) = x5 (ix2 (0 : Fin 1) (1 : Fin 2)) :=
  congrArg x5 (funext fun a => Fin.ext (by
    match a with
    | ⟨0, _⟩ => rfl
    | ⟨1, _⟩ => rfl))

/-- The output block after the body, at row `r` and lane `j`. -/
theorem out_apply (x0 x1 : FVec Ideal S2048x768 .f32) (x2 : FVec Ideal S4x768 .f32) (x3 x4 : FVec Ideal S2x768 .f32)
    (x5 : FVec Ideal S1x2 .f32) (r : Fin 2048) (j : Fin 768) :
    out0_6 (F := Ideal) x0 x1 x2 x3 x4 x5 (ix2 r j)
      = kernelRow (Named.named (F := Ideal) κ "inv_1536" (φ := .f32) 0x3A2AAAAB#32) (Ideal.ofBits .f32 0x3727C5AC#32)
          (fun k => x0 (ix2 r k)) (fun k => x1 (ix2 r k))
          (fun k => x3 (ix2 (0 : Fin 2) k)) (fun k => x3 (ix2 (1 : Fin 2) k))
          (fun k => x4 (ix2 (0 : Fin 2) k)) (fun k => x4 (ix2 (1 : Fin 2) k))
          (fun k => x2 (ix2 (0 : Fin 4) k)) (fun k => x2 (ix2 (1 : Fin 4) k))
          (fun k => x2 (ix2 (2 : Fin 4) k)) (fun k => x2 (ix2 (3 : Fin 4) k))
          (x5 (ix2 (0 : Fin 1) (0 : Fin 2))) (x5 (ix2 (0 : Fin 1) (1 : Fin 2))) j := by
  unfold out0_6
  rw [View.canon_unit_zero off_zero]
  simp only [View.ld_unit_zero (S := S2048x768) off_zero, View.ld_unit_zero (S := S4x768) off_zero,
    View.ld_unit_zero (S := S2x768) off_zero]
  rw [block_apply, dirSum_apply, biasTerm_apply, bias0_apply, bias1_apply]
  simp only [dirS_apply, dirM_apply]
  rfl

end Cert.Fusion.Kernel

end
-- ==== Proof.KernelBlocks.lean ====
/-
  From blocks to the array: the fused program's [16384, 768] result.

  The grid has eight points; point `t` works on rows `2048·t … 2048·t + 2047` of the two feature arrays (as the
  region finds them: each a reshape of an argument) and on the whole of the four parameter arrays, and writes back
  rows `2048·t … 2048·t + 2047` of the result.  Row `i` of the result depends on row `i` of the feature arrays
  only, so every written-back block is a block of ONE function of the arrays, `rowsOf`: `kernelRow` of row `i`.
  The eight blocks tile the result, which therefore ends holding `rowsOf`.
-/
import proofs.«161193_g12695923327142_feedfinal_59_5_alg».proof.Proof.Gen.KernelIdeal.Frame
import proofs.«161193_g12695923327142_feedfinal_59_5_alg».proof.Proof.LibKeepdims
import proofs.«161193_g12695923327142_feedfinal_59_5_alg».proof.Proof.Rows
import proofs.«161193_g12695923327142_feedfinal_59_5_alg».proof.Proof.KernelOut
import Idealize.ShloMosaic.Lib.Pipeline.Value

noncomputable section

namespace Cert.Fusion.Kernel

open Idealize.ShloMosaic Idealize.ShloMosaic.TcCoe Idealize.SL.Sem Idealize.ShloMosaic.ValueIdx Cert.KernelIdeal Cert.KernelIdeal.Gen
open Idealize.ShloMosaic.Pipeline (Dat)

variable (m : (ℓ : Loc nD τ sig) → Buf (Elt Ideal) ℓ)

/-- The printed index maps over the grid: the two feature windows and the result window are at block row `t`, block
    column 0; the four parameter windows are always at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- A point's number is below eight. -/
theorem point_lt (t : Fin cfg0.N) : t.val < 8 := by
  have h := t.isLt
  have hN : cfg0.N = 8 := N_0
  omega

/-- Row `r` of point `t`'s block is row `2048·t + r` of a [16384, 768] array. -/
abbrev rowAt (t : Fin cfg0.N) (r : Fin 2048) : Fin 16384 := ⟨t.val * 2048 + r.val, by have := point_lt t; have := r.isLt; omega⟩

/-- The first feature window's block at point `t`: rows `2048·t …` of the array the region finds. -/
theorem iblk0_apply (c : Dev nD) (t : Fin cfg0.N) (r : Fin 2048) (k : Fin 768) :
    (iblk m c 0 t : Vec Ideal S2048x768 .f32) (ix2 r k)
      = (V m c main_call0_v0 : S16384x768.Idx → Elt Ideal .f32) (ix2 (rowAt t r) k) := by
  obtain ⟨e0, e1, -⟩ := idx_facts t
  unfold iblk
  rw [View.read_apply]
  show V m c main_call0_v0 _ = V m c main_call0_v0 _
  congr 1
  funext a
  apply Fin.ext
  match a with
  | ⟨0, _⟩ => show win0_0.index t (0 : Fin 2) * 2048 + 1 * r.val = t.val * 2048 + r.val; rw [e0]; omega
  | ⟨1, _⟩ => show win0_0.index t (1 : Fin 2) * 768 + 1 * k.val = k.val; rw [e1]; omega

/-- The second feature window's block at point `t`. -/
theorem iblk1_apply (c : Dev nD) (t : Fin cfg0.N) (r : Fin 2048) (k : Fin 768) :
    (iblk m c 1 t : Vec Ideal S2048x768 .f32) (ix2 r k)
      = (V m c main_call0_v1 : S16384x768.Idx → Elt Ideal .f32) (ix2 (rowAt t r) k) := by
  obtain ⟨-, -, e0, e1, -⟩ := idx_facts t
  unfold iblk
  rw [View.read_apply]
  show V m c main_call0_v1 _ = V m c main_call0_v1 _
  congr 1
  funext a
  apply Fin.ext
  match a with
  | ⟨0, _⟩ => show win0_1.index t (0 : Fin 2) * 2048 + 1 * r.val = t.val * 2048 + r.val; rw [e0]; omega
  | ⟨1, _⟩ => show win0_1.index t (1 : Fin 2) * 768 + 1 * k.val = k.val; rw [e1]; omega

/-- The gate-weight window's block is the whole [4, 768] array. -/
theorem iblk2_apply (c : Dev nD) (t : Fin cfg0.N) (a : Fin 4) (k : Fin 768) :
    (iblk m c 2 t : Vec Ideal S4x768 .f32) (ix2 a k) = (V m c main_call0_v4 : S4x768.Idx → Elt Ideal .f32) (ix2 a k) := by
  obtain ⟨-, -, -, -, e0, e1, -⟩ := idx_facts t
  unfold iblk
  rw [View.read_apply]
  show V m c main_call0_v4 _ = V m c main_call0_v4 _
  congr 1
  funext ax
  apply Fin.ext
  match ax with
  | ⟨0, _⟩ => show win0_2.index t (0 : Fin 2) * 4 + 1 * a.val = a.val; rw [e0]; omega
  | ⟨1, _⟩ => show win0_2.index t (1 : Fin 2) * 768 + 1 * k.val = k.val; rw [e1]; omega

/-- The scale window's block is the whole [2, 768] array. -/
theorem iblk3_apply (c : Dev nD) (t : Fin cfg0.N) (a : Fin 2) (k : Fin 768) :
    (iblk m c 3 t : Vec Ideal S2x768 .f32) (ix2 a k) = (V m c main_call0_v2 : S2x768.Idx → Elt Ideal .f32) (ix2 a k) := by
  obtain ⟨-, -, -, -, -, -, e0, e1, -⟩ := idx_facts t
  unfold iblk
  rw [View.read_apply]
  show V m c main_call0_v2 _ = V m c main_call0_v2 _
  congr 1
  funext ax
  apply Fin.ext
  match ax with
  | ⟨0, _⟩ => show win0_3.index t (0 : Fin 2) * 2 + 1 * a.val = a.val; rw [e0]; omega
  | ⟨1, _⟩ => show win0_3.index t (1 : Fin 2) * 768 + 1 * k.val = k.val; rw [e1]; omega

/-- The shift window's block is the whole [2, 768] array. -/
theorem iblk4_apply (c : Dev nD) (t : Fin cfg0.N) (a : Fin 2) (k : Fin 768) :
    (iblk m c 4 t : Vec Ideal S2x768 .f32) (ix2 a k) = (V m c main_call0_v3 : S2x768.Idx → Elt Ideal .f32) (ix2 a k) := by
  obtain ⟨-, -, -, -, -, -, -, -, e0, e1, -⟩ := idx_facts t
  unfold iblk
  rw [View.read_apply]
  show V m c main_call0_v3 _ = V m c main_call0_v3 _
  congr 1
  funext ax
  apply Fin.ext
  match ax with
  | ⟨0, _⟩ => show win0_4.index t (0 : Fin 2) * 2 + 1 * a.val = a.val; rw [e0]; omega
  | ⟨1, _⟩ => show win0_4.index t (1 : Fin 2) * 768 + 1 * k.val = k.val; rw [e1]; omega

/-- The bias window's block is the whole [1, 2] array. -/
theorem iblk5_apply (c : Dev nD) (t : Fin cfg0.N) (a : Fin 1) (k : Fin 2) :
    (iblk m c 5 t : Vec Ideal S1x2 .f32) (ix2 a k) = (V m c main_call0_v5 : S1x2.Idx → Elt Ideal .f32) (ix2 a k) := by
  obtain ⟨-, -, -, -, -, -, -, -, -, -, e0, e1, -⟩ := idx_facts t
  unfold iblk
  rw [View.read_apply]
  show V m c main_call0_v5 _ = V m c main_call0_v5 _
  congr 1
  funext ax
  apply Fin.ext
  match ax with
  | ⟨0, _⟩ => show win0_5.index t (0 : Fin 2) * 1 + 1 * a.val = a.val; rw [e0]; omega
  | ⟨1, _⟩ => show win0_5.index t (1 : Fin 2) * 2 + 1 * k.val = k.val; rw [e1]; omega

/-- The result as one function of the arrays the region finds: row `i`, lane `j` is the fused row of row `i`. -/
def rowsOf (A0 A1 : S16384x768.Idx → Elt Ideal .f32) (A2 : S4x768.Idx → Elt Ideal .f32) (A3 A4 : S2x768.Idx → Elt Ideal .f32)
    (A5 : S1x2.Idx → Elt Ideal .f32) (i : Fin 16384) (j : Fin 768) : EReal :=
  kernelRow (Named.named (F := Ideal) κ "inv_1536" (φ := .f32) 0x3A2AAAAB#32) (Ideal.ofBits .f32 0x3727C5AC#32)
    (fun k => A0 (ix2 i k)) (fun k => A1 (ix2 i k))
    (fun k => A3 (ix2 (0 : Fin 2) k)) (fun k => A3 (ix2 (1 : Fin 2) k))
    (fun k => A4 (ix2 (0 : Fin 2) k)) (fun k => A4 (ix2 (1 : Fin 2) k))
    (fun k => A2 (ix2 (0 : Fin 4) k)) (fun k => A2 (ix2 (1 : Fin 4) k))
    (fun k => A2 (ix2 (2 : Fin 4) k)) (fun k => A2 (ix2 (3 : Fin 4) k))
    (A5 (ix2 (0 : Fin 1) (0 : Fin 2))) (A5 (ix2 (0 : Fin 1) (1 : Fin 2))) j

/-- The same as an array of the result's shape. -/
def G2 (c : Dev nD) : S16384x768.Idx → Elt Ideal .f32 := fun i =>
  rowsOf (V m c main_call0_v0) (V m c main_call0_v1) (V m c main_call0_v4) (V m c main_call0_v2) (V m c main_call0_v3)
    (V m c main_call0_v5) ⟨(i 0).val, (i 0).isLt⟩ ⟨(i 1).val, (i 1).isLt⟩

/-- What the body leaves at point `t`, at row `r` and lane `j` of the block, is the fused row of row `2048·t + r`. -/
theorem after_apply (c : Dev nD) (t : Fin cfg0.N) (r : Fin 2048) (j : Fin 768) :
    out0_6 (F := Ideal) (iblk m c 0 t) (iblk m c 1 t) (iblk m c 2 t) (iblk m c 3 t) (iblk m c 4 t) (iblk m c 5 t) (ix2 r j)
      = rowsOf (V m c main_call0_v0) (V m c main_call0_v1) (V m c main_call0_v4) (V m c main_call0_v2) (V m c main_call0_v3)
          (V m c main_call0_v5) (rowAt t r) j := by
  refine (out_apply (iblk m c 0 t) (iblk m c 1 t) (iblk m c 2 t) (iblk m c 3 t) (iblk m c 4 t) (iblk m c 5 t) r j).trans ?_
  unfold rowsOf
  simp only [iblk0_apply, iblk1_apply, iblk2_apply, iblk3_apply, iblk4_apply, iblk5_apply]

/-- `G2` at an index, by its definition. -/
theorem G2_apply (c : Dev nD) (i : S16384x768.Idx) :
    G2 m c i = rowsOf (V m c main_call0_v0) (V m c main_call0_v1) (V m c main_call0_v4) (V m c main_call0_v2)
      (V m c main_call0_v3) (V m c main_call0_v5) ⟨(i 0).val, (i 0).isLt⟩ ⟨(i 1).val, (i 1).isLt⟩ := rfl

/-- WHAT POINT `t` WRITES BACK is block `t` of `G2`: rows `2048·t …` of the fused rows. -/
theorem flushed_eq (c : Dev nD) (t : Fin cfg0.N) :
    (dats m 0 c).flushed 6 t = ((cfg0.win 6).blk t).view.read (Elt Ideal) (G2 m c) := by
  show (cfg0.win 6).cut (grid0.coords t) ((dats m 0 c).after 6 t) = _
  rw [after0_6]
  obtain ⟨-, -, -, -, -, -, -, -, -, -, -, -, e0, e1⟩ := idx_facts t
  funext y
  show out0_6 (F := Ideal) (iblk m c 0 t) (iblk m c 1 t) (iblk m c 2 t) (iblk m c 3 t) (iblk m c 4 t) (iblk m c 5 t)
      (y : S2048x768.Idx) = G2 m c (((cfg0.win 6).blk t).view.emb y)
  refine ((congrArg (out0_6 (F := Ideal) (iblk m c 0 t) (iblk m c 1 t) (iblk m c 2 t) (iblk m c 3 t) (iblk m c 4 t) (iblk m c 5 t))
    (eq_ix2 (y : S2048x768.Idx))).trans
    (after_apply m c t ((y : S2048x768.Idx) 0) ((y : S2048x768.Idx) 1))).trans ?_
  refine Eq.trans ?_ (G2_apply m c (((cfg0.win 6).blk t).view.emb y)).symm
  refine congrArg₂ (rowsOf (V m c main_call0_v0) (V m c main_call0_v1) (V m c main_call0_v4) (V m c main_call0_v2)
    (V m c main_call0_v3) (V m c main_call0_v5)) (Fin.ext ?_) (Fin.ext ?_)
  · show t.val * 2048 + ((y : S2048x768.Idx) 0).val = win0_6.index t (0 : Fin 2) * 2048 + 1 * ((y : S2048x768.Idx) 0).val
    rw [e0]; omega
  · show ((y : S2048x768.Idx) 1).val = win0_6.index t (1 : Fin 2) * 768 + 1 * ((y : S2048x768.Idx) 1).val
    rw [e1]; omega

/-- An index of the result is in point `t`'s block iff each coordinate is in the block's range on its axis. -/
theorem mem_blk (t : Fin cfg0.N) (i : S16384x768.Idx) :
    i ∈ ((cfg0.win 6).blk t).view.set ↔ ∀ a : Fin 2, win0_6.index t a * S2048x768.size a ≤ (i a).val
      ∧ (i a).val < win0_6.index t a * S2048x768.size a + S2048x768.size a := by
  show i ∈ ((View.whole main_call0_v6).slice (win0_6.rect t)).set ↔ _
  rw [View.set_slice_whole, Rect.mem_set_unit]
  exact Iff.rfl

/-- Every index of the result is in the block of the point numbered by its row divided by 2048. -/
theorem cover (i : S16384x768.Idx) :
    ∃ t : Fin cfg0.N, (cfg0.win 6).flush t = true ∧ i ∈ ((cfg0.win 6).blk t).view.set := by
  have h0 : (i 0).val < 16384 := (i 0).isLt
  have h1 : (i 1).val < 768 := (i 1).isLt
  have hN : cfg0.N = 8 := N_0
  obtain ⟨t, ht⟩ : ∃ t : Fin cfg0.N, t.val = (i 0).val / 2048 := ⟨⟨(i 0).val / 2048, by omega⟩, rfl⟩
  obtain ⟨-, -, -, -, -, -, -, -, -, -, -, -, e0, e1⟩ := idx_facts t
  refine ⟨t, flush0_6 t, ?_⟩
  rw [mem_blk]
  intro a
  match a with
  | ⟨0, _⟩ =>
    show win0_6.index t (0 : Fin 2) * 2048 ≤ (i 0).val ∧ (i 0).val < win0_6.index t (0 : Fin 2) * 2048 + 2048
    rw [e0, ht]; omega
  | ⟨1, _⟩ =>
    show win0_6.index t (1 : Fin 2) * 768 ≤ (i 1).val ∧ (i 1).val < win0_6.index t (1 : Fin 2) * 768 + 768
    rw [e1]; omega

/-- THE RESULT ARRAY after the region: the fused rows. -/
theorem final (c : Dev nD) : (dats m 0 c).arrAt 6 cfg0.N = G2 m c :=
  (dats m 0 c).arrAt_eq_of_cover 6 (G2 m c) (fun t _ => flushed_eq m c t) cover

end Cert.Fusion.Kernel

end
-- ==== Proof.Fused.lean ====
/-
  The fused program's result as ONE function of the six arguments.

  Entry `(b, q, j)` of the [4, 4096, 768] result is the fused row (`kernelRow`) of row `(b, q)` of the two feature
  arrays.  The parameters enter by halves: the scale and the shift, of length 1536, as their first and last 768
  entries; the [2, 1536] gate weights as the four half rows (class 0 first half, class 0 second half, class 1 first
  half, class 1 second half); the two gate biases as they are.
-/
import proofs.«161193_g12695923327142_feedfinal_59_5_alg».proof.KernelIdeal
import proofs.«161193_g12695923327142_feedfinal_59_5_alg».proof.Proof.Rows
import Idealize.ShloMosaic.Lib.ValueIdx

noncomputable section

namespace Cert.Fusion

open Idealize.ShloMosaic Idealize.ShloMosaic.ValueIdx Cert.KernelIdeal

/-- Entry `(b, q, j)` of the fused result. -/
def fused (a0 a1 : S4x4096x768.Idx → EReal) (a2 a3 : S1536.Idx → EReal) (a4 : S2x1536.Idx → EReal) (a5 : S2.Idx → EReal)
    (b : Fin 4) (q : Fin 4096) (j : Fin 768) : EReal :=
  kernelRow (Named.named (F := Ideal) κ "inv_1536" (φ := .f32) 0x3A2AAAAB#32) (Ideal.ofBits .f32 0x3727C5AC#32)
    (fun k => a0 (ix3 b q k)) (fun k => a1 (ix3 b q k))
    (fun k => a2 (ix1 (⟨k.val, by omega⟩ : Fin 1536))) (fun k => a2 (ix1 (⟨768 + k.val, by omega⟩ : Fin 1536)))
    (fun k => a3 (ix1 (⟨k.val, by omega⟩ : Fin 1536))) (fun k => a3 (ix1 (⟨768 + k.val, by omega⟩ : Fin 1536)))
    (fun k => a4 (ix2 (0 : Fin 2) (⟨k.val, by omega⟩ : Fin 1536))) (fun k => a4 (ix2 (0 : Fin 2) (⟨768 + k.val, by omega⟩ : Fin 1536)))
    (fun k => a4 (ix2 (1 : Fin 2) (⟨k.val, by omega⟩ : Fin 1536))) (fun k => a4 (ix2 (1 : Fin 2) (⟨768 + k.val, by omega⟩ : Fin 1536)))
    (a5 (ix1 (0 : Fin 2))) (a5 (ix1 (1 : Fin 2))) j

end Cert.Fusion

end
-- ==== Proof.KernelRun.lean ====
/-
  The fused program's run, read as a value.

  Before the region the program reshapes its arguments: the two [4, 4096, 768] feature arrays to [16384, 768] (row
  `4096·b + q` is row `(b, q)`), the scale and the shift of length 1536 to [2, 768] (row 0 the first half, row 1 the
  second), the [2, 1536] gate weights to [4, 768] (rows: class 0 first half, class 0 second half, class 1 first half,
  class 1 second half), the two biases to [1, 2].  After the region it reshapes the [16384, 768] result back to
  [4, 4096, 768].  A reshape keeps row-major positions, so entry `(b, q, j)` of the program's result is
  `Cert.Fusion.fused` of the arguments at `(b, q, j)`.
-/
import proofs.«161193_g12695923327142_feedfinal_59_5_alg».proof.Proof.Gen.KernelIdeal.Frame
import proofs.«161193_g12695923327142_feedfinal_59_5_alg».proof.Proof.LibKeepdims
import proofs.«161193_g12695923327142_feedfinal_59_5_alg».proof.Proof.Rows
import proofs.«161193_g12695923327142_feedfinal_59_5_alg».proof.Proof.KernelBlocks
import proofs.«161193_g12695923327142_feedfinal_59_5_alg».proof.Proof.Fused
import Idealize.ShloMosaic.Lib.StableHlo.Run

noncomputable section

namespace Cert.Fusion.Kernel

open Idealize.ShloMosaic Idealize.ShloMosaic.TcCoe Idealize.SL.Sem Idealize.ShloMosaic.ValueIdx Cert.KernelIdeal Cert.KernelIdeal.Gen
open Idealize.ShloMosaic.StableHlo
open Idealize.ShloMosaic.Pipeline (Dat)

variable (m : (ℓ : Loc nD τ sig) → Buf (Elt Ideal) ℓ) (ρ : Dev nD → PrngReg)

/-! ## The arrays the region finds are reshapes of the arguments -/

/-- The first feature array as the region finds it. -/
theorem entry0 (c : Dev nD) : (V m c main_call0_v0 : S16384x768.Idx → Elt Ideal .f32)
    = shapeCast S16384x768 (m ((c : Thread nD τ).loc main_arg0)) shapeCasts_S4x4096x768_S16384x768 := by
  show StableHlo.after hostOps0 (fun b => m (c, b)) (Proc.devRef .tc main_call0_v0) = _
  after_results
  rfl

/-- The second feature array as the region finds it. -/
theorem entry1 (c : Dev nD) : (V m c main_call0_v1 : S16384x768.Idx → Elt Ideal .f32)
    = shapeCast S16384x768 (m ((c : Thread nD τ).loc main_arg1)) shapeCasts_S4x4096x768_S16384x768 := by
  show StableHlo.after hostOps0 (fun b => m (c, b)) (Proc.devRef .tc main_call0_v1) = _
  after_results
  rfl

/-- The scale as the region finds it. -/
theorem entry2 (c : Dev nD) : (V m c main_call0_v2 : S2x768.Idx → Elt Ideal .f32)
    = shapeCast S2x768 (m ((c : Thread nD τ).loc main_arg2)) shapeCasts_S1536_S2x768 := by
  show StableHlo.after hostOps0 (fun b => m (c, b)) (Proc.devRef .tc main_call0_v2) = _
  after_results
  rfl

/-- The shift as the region finds it. -/
theorem entry3 (c : Dev nD) : (V m c main_call0_v3 : S2x768.Idx → Elt Ideal .f32)
    = shapeCast S2x768 (m ((c : Thread nD τ).loc main_arg3)) shapeCasts_S1536_S2x768 := by
  show StableHlo.after hostOps0 (fun b => m (c, b)) (Proc.devRef .tc main_call0_v3) = _
  after_results
  rfl

/-- The gate weights as the region finds them. -/
theorem entry4 (c : Dev nD) : (V m c main_call0_v4 : S4x768.Idx → Elt Ideal .f32)
    = shapeCast S4x768 (m ((c : Thread nD τ).loc main_arg4)) shapeCasts_S2x1536_S4x768 := by
  show StableHlo.after hostOps0 (fun b => m (c, b)) (Proc.devRef .tc main_call0_v4) = _
  after_results
  rfl

/-- The gate biases as the region finds them. -/
theorem entry5 (c : Dev nD) : (V m c main_call0_v5 : S1x2.Idx → Elt Ideal .f32)
    = shapeCast S1x2 (m ((c : Thread nD τ).loc main_arg5)) shapeCasts_S2_S1x2 := by
  show StableHlo.after hostOps0 (fun b => m (c, b)) (Proc.devRef .tc main_call0_v5) = _
  after_results
  rfl

/-- Row `(b, q)` of a [4, 4096, ·] array is row `4096·b + q` of its [16384, ·] reshape. -/
abbrev rowOf (b : Fin 4) (q : Fin 4096) : Fin 16384 := ⟨b.val * 4096 + q.val, by have := b.isLt; have := q.isLt; omega⟩

/-- A [4, 4096, 768] array reshaped to [16384, 768], read at row `4096·b + q`. -/
theorem feat_apply (x : S4x4096x768.Idx → Elt Ideal .f32) (b : Fin 4) (q : Fin 4096) (k : Fin 768) :
    shapeCast S16384x768 x shapeCasts_S4x4096x768_S16384x768 (ix2 (rowOf b q) k) = x (ix3 b q k) :=
  shapeCast_apply x _ _ _ (by
    rw [Shape.rowMajor_val_three, Shape.rowMajor_val_two]
    show (b.val * 4096 + q.val) * 768 + k.val = (b.val * 4096 + q.val) * 768 + k.val
    rfl)

/-- A length-1536 array reshaped to [2, 768]: row 0 is its first half. -/
theorem half0_apply (x : S1536.Idx → Elt Ideal .f32) (k : Fin 768) :
    shapeCast S2x768 x shapeCasts_S1536_S2x768 (ix2 (0 : Fin 2) k) = x (ix1 (⟨k.val, by omega⟩ : Fin 1536)) :=
  shapeCast_apply x _ _ _ (by
    rw [Shape.rowMajor_val_one, Shape.rowMajor_val_two]
    show k.val = 0 * 768 + k.val
    omega)

/-- Row 1 is its second half. -/
theorem half1_apply (x : S1536.Idx → Elt Ideal .f32) (k : Fin 768) :
    shapeCast S2x768 x shapeCasts_S1536_S2x768 (ix2 (1 : Fin 2) k) = x (ix1 (⟨768 + k.val, by omega⟩ : Fin 1536)) :=
  shapeCast_apply x _ _ _ (by
    rw [Shape.rowMajor_val_one, Shape.rowMajor_val_two]
    show 768 + k.val = 1 * 768 + k.val
    omega)

/-- The [2, 1536] gate weights reshaped to [4, 768]: row `2·c + h` is half `h` of class `c`. -/
theorem gate_apply (x : S2x1536.Idx → Elt Ideal .f32) (a : Fin 4) (cl : Fin 2) (d : Fin 1536) (k : Fin 768)
    (h : a.val * 768 + k.val = cl.val * 1536 + d.val) :
    shapeCast S4x768 x shapeCasts_S2x1536_S4x768 (ix2 a k) = x (ix2 cl d) :=
  shapeCast_apply x _ _ _ (by
    rw [Shape.rowMajor_val_two, Shape.rowMajor_val_two]
    show cl.val * 1536 + d.val = a.val * 768 + k.val
    omega)

/-- The two biases reshaped to [1, 2]. -/
theorem bias_apply (x : S2.Idx → Elt Ideal .f32) (cl : Fin 2) :
    shapeCast S1x2 x shapeCasts_S2_S1x2 (ix2 (0 : Fin 1) cl) = x (ix1 cl) :=
  shapeCast_apply x _ _ _ (by
    rw [Shape.rowMajor_val_one, Shape.rowMajor_val_two]
    show cl.val = 0 * 2 + cl.val
    omega)

/-! ## The arrays the region finds, read at coordinates -/

/-- Row `4096·b + q` of the first feature array the region finds is row `(b, q)` of the first argument. -/
theorem feat0_at (c : Dev nD) (b : Fin 4) (q : Fin 4096) (k : Fin 768) :
    (V m c main_call0_v0 : S16384x768.Idx → Elt Ideal .f32) (ix2 (rowOf b q) k)
      = (m ((c : Thread nD τ).loc main_arg0) : S4x4096x768.Idx → Elt Ideal .f32) (ix3 b q k) := by
  rw [entry0]; exact feat_apply _ b q k

/-- The same for the second feature array. -/
theorem feat1_at (c : Dev nD) (b : Fin 4) (q : Fin 4096) (k : Fin 768) :
    (V m c main_call0_v1 : S16384x768.Idx → Elt Ideal .f32) (ix2 (rowOf b q) k)
      = (m ((c : Thread nD τ).loc main_arg1) : S4x4096x768.Idx → Elt Ideal .f32) (ix3 b q k) := by
  rw [entry1]; exact feat_apply _ b q k

/-- Row 0 of the scale the region finds is the first half of the scale. -/
theorem scale0_at (c : Dev nD) (k : Fin 768) :
    (V m c main_call0_v2 : S2x768.Idx → Elt Ideal .f32) (ix2 (0 : Fin 2) k)
      = (m ((c : Thread nD τ).loc main_arg2) : S1536.Idx → Elt Ideal .f32) (ix1 (⟨k.val, by omega⟩ : Fin 1536)) := by
  rw [entry2]; exact half0_apply _ k

/-- Row 1 is its second half. -/
theorem scale1_at (c : Dev nD) (k : Fin 768) :
    (V m c main_call0_v2 : S2x768.Idx → Elt Ideal .f32) (ix2 (1 : Fin 2) k)
      = (m ((c : Thread nD τ).loc main_arg2) : S1536.Idx → Elt Ideal .f32) (ix1 (⟨768 + k.val, by omega⟩ : Fin 1536)) := by
  rw [entry2]; exact half1_apply _ k

/-- Row 0 of the shift the region finds is the first half of the shift. -/
theorem shift0_at (c : Dev nD) (k : Fin 768) :
    (V m c main_call0_v3 : S2x768.Idx → Elt Ideal .f32) (ix2 (0 : Fin 2) k)
      = (m ((c : Thread nD τ).loc main_arg3) : S1536.Idx → Elt Ideal .f32) (ix1 (⟨k.val, by omega⟩ : Fin 1536)) := by
  rw [entry3]; exact half0_apply _ k

/-- Row 1 is its second half. -/
theorem shift1_at (c : Dev nD) (k : Fin 768) :
    (V m c main_call0_v3 : S2x768.Idx → Elt Ideal .f32) (ix2 (1 : Fin 2) k)
      = (m ((c : Thread nD τ).loc main_arg3) : S1536.Idx → Elt Ideal .f32) (ix1 (⟨768 + k.val, by omega⟩ : Fin 1536)) := by
  rw [entry3]; exact half1_apply _ k

/-- Row 0 of the gate weights the region finds: class 0, first half. -/
theorem gate0_at (c : Dev nD) (k : Fin 768) :
    (V m c main_call0_v4 : S4x768.Idx → Elt Ideal .f32) (ix2 (0 : Fin 4) k)
      = (m ((c : Thread nD τ).loc main_arg4) : S2x1536.Idx → Elt Ideal .f32) (ix2 (0 : Fin 2) (⟨k.val, by omega⟩ : Fin 1536)) := by
  rw [entry4]; exact gate_apply _ (0 : Fin 4) (0 : Fin 2) _ k (by show 0 * 768 + k.val = 0 * 1536 + k.val; omega)

/-- Row 1: class 0, second half. -/
theorem gate1_at (c : Dev nD) (k : Fin 768) :
    (V m c main_call0_v4 : S4x768.Idx → Elt Ideal .f32) (ix2 (1 : Fin 4) k)
      = (m ((c : Thread nD τ).loc main_arg4) : S2x1536.Idx → Elt Ideal .f32) (ix2 (0 : Fin 2) (⟨768 + k.val, by omega⟩ : Fin 1536)) := by
  rw [entry4]; exact gate_apply _ (1 : Fin 4) (0 : Fin 2) _ k (by show 1 * 768 + k.val = 0 * 1536 + (768 + k.val); omega)

/-- Row 2: class 1, first half. -/
theorem gate2_at (c : Dev nD) (k : Fin 768) :
    (V m c main_call0_v4 : S4x768.Idx → Elt Ideal .f32) (ix2 (2 : Fin 4) k)
      = (m ((c : Thread nD τ).loc main_arg4) : S2x1536.Idx → Elt Ideal .f32) (ix2 (1 : Fin 2) (⟨k.val, by omega⟩ : Fin 1536)) := by
  rw [entry4]; exact gate_apply _ (2 : Fin 4) (1 : Fin 2) _ k (by show 2 * 768 + k.val = 1 * 1536 + k.val; omega)

/-- Row 3: class 1, second half. -/
theorem gate3_at (c : Dev nD) (k : Fin 768) :
    (V m c main_call0_v4 : S4x768.Idx → Elt Ideal .f32) (ix2 (3 : Fin 4) k)
      = (m ((c : Thread nD τ).loc main_arg4) : S2x1536.Idx → Elt Ideal .f32) (ix2 (1 : Fin 2) (⟨768 + k.val, by omega⟩ : Fin 1536)) := by
  rw [entry4]; exact gate_apply _ (3 : Fin 4) (1 : Fin 2) _ k (by show 3 * 768 + k.val = 1 * 1536 + (768 + k.val); omega)

/-- The biases the region finds are the two biases. -/
theorem bias_at (c : Dev nD) (cl : Fin 2) :
    (V m c main_call0_v5 : S1x2.Idx → Elt Ideal .f32) (ix2 (0 : Fin 1) cl)
      = (m ((c : Thread nD τ).loc main_arg5) : S2.Idx → Elt Ideal .f32) (ix1 cl) := by
  rw [entry5]; exact bias_apply _ cl

/-- The fused rows depend on the arrays only through the row read and the parameter rows. -/
theorem rowsOf_eq (A0 A1 : S16384x768.Idx → Elt Ideal .f32) (A2 : S4x768.Idx → Elt Ideal .f32) (A3 A4 : S2x768.Idx → Elt Ideal .f32)
    (A5 : S1x2.Idx → Elt Ideal .f32) (i : Fin 16384) (j : Fin 768)
    (s mm gs gm bs bm a0s a0m a1s a1m : Fin 768 → EReal) (c0 c1 : EReal)
    (h0 : ∀ k, A0 (ix2 i k) = s k) (h1 : ∀ k, A1 (ix2 i k) = mm k)
    (h3a : ∀ k, A3 (ix2 (0 : Fin 2) k) = gs k) (h3b : ∀ k, A3 (ix2 (1 : Fin 2) k) = gm k)
    (h4a : ∀ k, A4 (ix2 (0 : Fin 2) k) = bs k) (h4b : ∀ k, A4 (ix2 (1 : Fin 2) k) = bm k)
    (h2a : ∀ k, A2 (ix2 (0 : Fin 4) k) = a0s k) (h2b : ∀ k, A2 (ix2 (1 : Fin 4) k) = a0m k)
    (h2c : ∀ k, A2 (ix2 (2 : Fin 4) k) = a1s k) (h2d : ∀ k, A2 (ix2 (3 : Fin 4) k) = a1m k)
    (h5a : A5 (ix2 (0 : Fin 1) (0 : Fin 2)) = c0) (h5b : A5 (ix2 (0 : Fin 1) (1 : Fin 2)) = c1) :
    rowsOf A0 A1 A2 A3 A4 A5 i j
      = kernelRow (Named.named (F := Ideal) κ "inv_1536" (φ := .f32) 0x3A2AAAAB#32) (Ideal.ofBits .f32 0x3727C5AC#32)
          s mm gs gm bs bm a0s a0m a1s a1m c0 c1 j := by
  unfold rowsOf
  rw [funext h0, funext h1, funext h3a, funext h3b, funext h4a, funext h4b, funext h2a, funext h2b, funext h2c, funext h2d, h5a, h5b]

/-- The fused rows at row `4096·b + q`, lane `j`, in terms of the arguments: `fused` at `(b, q, j)`. -/
theorem G2_rows (c : Dev nD) (b : Fin 4) (q : Fin 4096) (j : Fin 768) :
    G2 m c (ix2 (rowOf b q) j)
      = fused (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) b q j := by
  show rowsOf (V m c main_call0_v0) (V m c main_call0_v1) (V m c main_call0_v4) (V m c main_call0_v2) (V m c main_call0_v3)
      (V m c main_call0_v5) (rowOf b q) j = _
  exact rowsOf_eq (V m c main_call0_v0) (V m c main_call0_v1) (V m c main_call0_v4) (V m c main_call0_v2) (V m c main_call0_v3)
    (V m c main_call0_v5) (rowOf b q) j _ _ _ _ _ _ _ _ _ _ _ _
    (fun k => feat0_at m c b q k) (fun k => feat1_at m c b q k) (fun k => scale0_at m c k) (fun k => scale1_at m c k)
    (fun k => shift0_at m c k) (fun k => shift1_at m c k) (fun k => gate0_at m c k) (fun k => gate1_at m c k)
    (fun k => gate2_at m c k) (fun k => gate3_at m c k) (bias_at m c (0 : Fin 2)) (bias_at m c (1 : Fin 2))

/-! ## The result after the region and the reshape back -/

/-- The program's result as an array: `fused` of the arguments at every index. -/
def fusedArr (c : Dev nD) : S4x4096x768.Idx → Elt Ideal .f32 := fun i =>
  fused (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    ⟨(i 0).val, (i 0).isLt⟩ ⟨(i 1).val, (i 1).isLt⟩ ⟨(i 2).val, (i 2).isLt⟩

/-- The [16384, 768] fused rows reshaped to [4, 4096, 768] are `fused` of the arguments. -/
theorem reshape_back (c : Dev nD) :
    shapeCast S4x4096x768 (G2 m c) shapeCasts_S16384x768_S4x4096x768 = fusedArr m c := by
  funext i
  obtain ⟨b, q, j, rfl⟩ : ∃ (b : Fin 4) (q : Fin 4096) (j : Fin 768), i = ix3 b q j := ⟨i 0, i 1, i 2, eq_ix3 i⟩
  refine (shapeCast_apply (G2 m c) shapeCasts_S16384x768_S4x4096x768 (ix3 b q j) (ix2 (rowOf b q) j) ?_).trans
    ((G2_rows m c b q j).trans rfl)
  rw [Shape.rowMajor_val_three, Shape.rowMajor_val_two]
  show (b.val * 4096 + q.val) * 768 + j.val = (b.val * 4096 + q.val) * 768 + j.val
  rfl

/-- What the program's result buffer holds after the reshape that follows the region. -/
theorem tail_eq (c : Dev nD) :
    Pipeline.afterTail₀ cfgs (dats m) 0 (V0 m) [hostOps1] c main_v0 = fusedArr m c := by
  have e : Pipeline.withArrays (cfgs 0).spec c (V0 m c) (fun w => (dats m 0 c).arrAt w (cfgs 0).N)
      (Proc.devRef .tc main_call0_v6) = G2 m c :=
    (Pipeline.withArrays_arr spec0 launch0.win.arr_inj c _ _ 6).trans (final m c)
  unfold Pipeline.afterTail₀
  show StableHlo.after hostOps1 _ (Proc.devRef .tc main_v0) = _
  after_results
  refine Eq.trans ?_ (reshape_back m c)
  rw [← e]
  rfl

/-- THE RUN, READ: every weakly fair execution terminates with the result at `fused` of the arguments and the
    arguments unchanged. -/
theorem run : θ_run defs (onTc (τ := τ) (main (F := Ideal))) ⟨m, fun _ => 0, ρ⟩ fun r => ∀ c : Dev nD,
      r.2.mem ((c.tc : Thread nD τ).loc main_v0) = fusedArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨
      ((h c).2 main_v0 (Pipeline.mem_restRefs_of main_v0 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.Fusion.Kernel

end
-- ==== Proof.RowAlgebra.lean ====
/-
  The fused row and the reference row agree over finite reals.

  Both rows are evaluated on coerced reals.  Every intermediate value is then a coerced real, so each side is the
  coercion of a real-valued formula (`kernelRowR`, `refRowR`); the two real formulas are equal by
  * splitting each sum over the joined row of length 1536 into its two halves of length 768,
  * the identity  (∑ (h − μ)²)/n = (∑ h²)/n − μ²  for the variance (with μ = (∑ h)/n),
  * linearity of the logit difference in the normalised row, and
  * the fact that a two-class softmax is the logistic function of the logit difference.
-/
import proofs.«161193_g12695923327142_feedfinal_59_5_alg».proof.Proof.Rows

noncomputable section

namespace Cert.Fusion

open Idealize.ShloMosaic

/-- The coercion of a finite real sum is the sum of the coercions. -/
theorem coe_sum {ι : Type*} (t : Finset ι) (f : ι → ℝ) :
    ((∑ k ∈ t, f k : ℝ) : EReal) = ∑ k ∈ t, ((f k : ℝ) : EReal) := by
  classical
  induction t using Finset.induction_on with
  | empty => simp
  | insert a t ha ih => rw [Finset.sum_insert ha, Finset.sum_insert ha, EReal.coe_add, ih]

/-- The reciprocal square root of a positive real. -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

/-- The quotient of two reals with a nonzero denominator. -/
theorem div_coe_coe (a : ℝ) {b : ℝ} (h : b ≠ 0) : Ideal.div (a : EReal) (b : EReal) = ((a / b : ℝ) : EReal) := by
  rw [Ideal.div_coe h, ← EReal.coe_mul, mul_one_div]

/-- The fused row over the reals. -/
def kernelRowR (inv eps : ℝ) (s m gs gm bs bm a0s a0m a1s a1m : Fin 768 → ℝ) (b0 b1 : ℝ) (j : Fin 768) : ℝ :=
  let dws : Fin 768 → ℝ := fun k => gs k * (a0s k - a1s k)
  let dwm : Fin 768 → ℝ := fun k => gm k * (a0m k - a1m k)
  let da : ℝ := (∑ k, dws k) + (∑ k, dwm k)
  let dcb : ℝ := ((∑ k, bs k * (a0s k - a1s k)) + (∑ k, bm k * (a0m k - a1m k))) + (b0 - b1)
  let mean : ℝ := ((∑ k, s k) + (∑ k, m k)) * inv
  let msq : ℝ := ((∑ k, s k * s k) + (∑ k, m k * m k)) * inv
  let rstd : ℝ := (Real.sqrt ((msq - mean * mean) + eps))⁻¹
  let t : ℝ := (∑ k, s k * dws k) + (∑ k, m k * dwm k)
  m j + (1 + Real.exp (-((t - mean * da) * rstd + dcb)))⁻¹ * (s j - m j)

/-- On coerced reals with a positive argument of the reciprocal square root, the fused row is the coerced real row. -/
theorem kernelRow_coe (inv eps : ℝ) (s m gs gm bs bm a0s a0m a1s a1m : Fin 768 → ℝ) (b0 b1 : ℝ) (j : Fin 768)
    (hpos : 0 < (((∑ k, s k * s k) + (∑ k, m k * m k)) * inv
      - (((∑ k, s k) + (∑ k, m k)) * inv) * (((∑ k, s k) + (∑ k, m k)) * inv)) + eps) :
    kernelRow (inv : EReal) (eps : EReal) (fun k => (s k : EReal)) (fun k => (m k : EReal))
      (fun k => (gs k : EReal)) (fun k => (gm k : EReal)) (fun k => (bs k : EReal)) (fun k => (bm k : EReal))
      (fun k => (a0s k : EReal)) (fun k => (a0m k : EReal)) (fun k => (a1s k : EReal)) (fun k => (a1m k : EReal))
      (b0 : EReal) (b1 : EReal) j
    = ((kernelRowR inv eps s m gs gm bs bm a0s a0m a1s a1m b0 b1 j : ℝ) : EReal) := by
  simp only [kernelRow, kernelRowR]
  simp only [← EReal.coe_mul, ← EReal.coe_sub, ← EReal.coe_add, ← coe_sum]
  rw [rsqrt_coe_pos hpos]
  simp only [← EReal.coe_mul, ← EReal.coe_sub, ← EReal.coe_add]
  rw [Ideal.logistic_coe]
  simp only [← EReal.coe_mul, ← EReal.coe_sub, ← EReal.coe_add]

/-- The larger of two coerced reals is the coerced larger real. -/
theorem coe_max' (a b : ℝ) : max (a : EReal) (b : EReal) = ((max a b : ℝ) : EReal) :=
  (EReal.coe_strictMono.monotone.map_max).symm

/-- The running maximum over the two classes, started from `⊥`. -/
theorem fold_max_fin2 (l : Fin 2 → EReal) :
    (Finset.univ : Finset (Fin 2)).fold max ⊥ l = max (l 0) (l 1) := by
  have hu : (Finset.univ : Finset (Fin 2)) = insert 0 {1} := by decide
  rw [hu, Finset.fold_insert (by decide), Finset.fold_singleton, max_bot_right]

/-- The reference row over the reals. -/
def refRowR (n eps : ℝ) (h g bt : Fin 1536 → ℝ) (W : Fin 2 → Fin 1536 → ℝ) (bias : Fin 2 → ℝ) (sj mj : ℝ) : ℝ :=
  let mean : ℝ := (∑ k, h k) / n
  let var : ℝ := (∑ k, (h k - mean) * (h k - mean)) / n
  let rstd : ℝ := (Real.sqrt (var + eps))⁻¹
  let hn : Fin 1536 → ℝ := fun k => (h k - mean) * rstd * g k + bt k
  let l : Fin 2 → ℝ := fun c => (∑ k, hn k * W c k) + bias c
  let mx : ℝ := max (l 0) (l 1)
  let e : Fin 2 → ℝ := fun c => Real.exp (l c - mx)
  let Z : ℝ := e 0 + e 1
  e 0 / Z * sj + e 1 / Z * mj

/-- On coerced reals with a nonzero length and a positive argument of the reciprocal square root, the reference row is
    the coerced real row. -/
theorem refRow_coe (n eps : ℝ) (h g bt : Fin 1536 → ℝ) (W : Fin 2 → Fin 1536 → ℝ) (bias : Fin 2 → ℝ) (sj mj : ℝ)
    (hn : n ≠ 0)
    (hpos : 0 < (∑ k, (h k - (∑ k, h k) / n) * (h k - (∑ k, h k) / n)) / n + eps) :
    refRow 0 (n : EReal) (eps : EReal) ⊥ (fun k => (h k : EReal)) (fun k => (g k : EReal)) (fun k => (bt k : EReal))
      (fun c k => (W c k : EReal)) (fun c => (bias c : EReal)) (sj : EReal) (mj : EReal)
    = ((refRowR n eps h g bt W bias sj mj : ℝ) : EReal) := by
  simp only [refRow, refRowR, zero_add, fold_max_fin2, max_bot_left, Fin.sum_univ_two]
  simp only [← coe_sum, div_coe_coe _ hn, ← EReal.coe_mul, ← EReal.coe_sub, ← EReal.coe_add]
  rw [rsqrt_coe_pos hpos]
  simp only [← coe_sum, ← EReal.coe_mul, ← EReal.coe_sub, ← EReal.coe_add, coe_max', Ideal.exp_coe]
  have hZ : ∀ a b : ℝ, Real.exp a + Real.exp b ≠ 0 := fun a b => by positivity
  simp only [div_coe_coe _ (hZ _ _), ← EReal.coe_mul, ← EReal.coe_add]

/-- The joined row `s ++ m` of length 1536. -/
def joinRow (s m : Fin 768 → ℝ) : Fin 1536 → ℝ :=
  fun k => if hk : k.val < 768 then s ⟨k.val, hk⟩ else m ⟨k.val - 768, by omega⟩

theorem joinRow_lo (s m : Fin 768 → ℝ) (k : Fin 768) (hk : k.val < 1536) : joinRow s m ⟨k.val, hk⟩ = s k := by
  unfold joinRow
  rw [dif_pos (show (⟨k.val, hk⟩ : Fin 1536).val < 768 from k.isLt)]

theorem joinRow_hi (s m : Fin 768 → ℝ) (k : Fin 768) (hk : 768 + k.val < 1536) :
    joinRow s m ⟨768 + k.val, hk⟩ = m k := by
  unfold joinRow
  rw [dif_neg (show ¬ (⟨768 + k.val, hk⟩ : Fin 1536).val < 768 from by simp)]
  exact congrArg m (Fin.ext (by simp))

/-- A sum over the joined index range is the sum over the first half plus the sum over the second half. -/
theorem sum_halves (f : Fin 1536 → ℝ) :
    ∑ k, f k = (∑ k : Fin 768, f ⟨k.val, by omega⟩) + ∑ k : Fin 768, f ⟨768 + k.val, by omega⟩ :=
  Fin.sum_univ_add (a := 768) (b := 768) f

/-- The fused row written with sums over the whole joined row. -/
def fusedR (eps : ℝ) (h g bt : Fin 1536 → ℝ) (W : Fin 2 → Fin 1536 → ℝ) (bias : Fin 2 → ℝ) (sj mj : ℝ) : ℝ :=
  let dw : Fin 1536 → ℝ := fun k => g k * (W 0 k - W 1 k)
  let da : ℝ := ∑ k, dw k
  let dcb : ℝ := (∑ k, bt k * (W 0 k - W 1 k)) + (bias 0 - bias 1)
  let mean : ℝ := (∑ k, h k) * (1 / 1536)
  let msq : ℝ := (∑ k, h k * h k) * (1 / 1536)
  let rstd : ℝ := (Real.sqrt ((msq - mean * mean) + eps))⁻¹
  let t : ℝ := ∑ k, h k * dw k
  mj + (1 + Real.exp (-((t - mean * da) * rstd + dcb)))⁻¹ * (sj - mj)

/-- Splitting every sum of `fusedR` at the joined row into its halves gives the fused row. -/
theorem kernelRowR_eq_fusedR (s m : Fin 768 → ℝ) (g bt : Fin 1536 → ℝ) (W : Fin 2 → Fin 1536 → ℝ) (bias : Fin 2 → ℝ)
    (e : ℝ) (j : Fin 768) :
    kernelRowR (1 / 1536) e s m
      (fun k => g ⟨k.val, by omega⟩) (fun k => g ⟨768 + k.val, by omega⟩)
      (fun k => bt ⟨k.val, by omega⟩) (fun k => bt ⟨768 + k.val, by omega⟩)
      (fun k => W 0 ⟨k.val, by omega⟩) (fun k => W 0 ⟨768 + k.val, by omega⟩)
      (fun k => W 1 ⟨k.val, by omega⟩) (fun k => W 1 ⟨768 + k.val, by omega⟩)
      (bias 0) (bias 1) j
    = fusedR e (joinRow s m) g bt W bias (s j) (m j) := by
  simp only [kernelRowR, fusedR, sum_halves, joinRow_lo, joinRow_hi]

/-- The mean of squared deviations is the mean square minus the squared mean. -/
theorem var_eq (h : Fin 1536 → ℝ) :
    (∑ k, (h k - (∑ k, h k) / 1536) * (h k - (∑ k, h k) / 1536)) / 1536
      = (∑ k, h k * h k) * (1 / 1536) - ((∑ k, h k) * (1 / 1536)) * ((∑ k, h k) * (1 / 1536)) := by
  have hk : ∀ k, (h k - (∑ k, h k) / 1536) * (h k - (∑ k, h k) / 1536)
      = h k * h k - 2 * ((∑ k, h k) / 1536) * h k + ((∑ k, h k) / 1536) * ((∑ k, h k) / 1536) := by
    intro k; ring
  simp only [hk, Finset.sum_add_distrib, Finset.sum_sub_distrib, ← Finset.mul_sum, Finset.sum_const,
    Finset.card_univ, Fintype.card_fin, nsmul_eq_mul]
  push_cast
  ring

/-- The mean of squared deviations is nonnegative. -/
theorem var_nonneg (h : Fin 1536 → ℝ) :
    0 ≤ (∑ k, (h k - (∑ k, h k) / 1536) * (h k - (∑ k, h k) / 1536)) / 1536 :=
  div_nonneg (Finset.sum_nonneg (fun k _ => mul_self_nonneg _)) (by norm_num)

/-- The difference of the two logits is affine in the normalised row: only the direction `g ⊙ (w₀ − w₁)` enters. -/
theorem logit_diff (h g bt w0 w1 : Fin 1536 → ℝ) (μ r b0 b1 : ℝ) :
    ((∑ k, ((h k - μ) * r * g k + bt k) * w0 k) + b0) - ((∑ k, ((h k - μ) * r * g k + bt k) * w1 k) + b1)
      = ((∑ k, h k * (g k * (w0 k - w1 k))) - μ * (∑ k, g k * (w0 k - w1 k))) * r
        + ((∑ k, bt k * (w0 k - w1 k)) + (b0 - b1)) := by
  have hk : ∀ k, ((h k - μ) * r * g k + bt k) * w0 k - ((h k - μ) * r * g k + bt k) * w1 k
      = (h k * (g k * (w0 k - w1 k)) - μ * (g k * (w0 k - w1 k))) * r + bt k * (w0 k - w1 k) := by
    intro k; ring
  have h1 : ((∑ k, ((h k - μ) * r * g k + bt k) * w0 k) + b0) - ((∑ k, ((h k - μ) * r * g k + bt k) * w1 k) + b1)
      = (∑ k, (((h k - μ) * r * g k + bt k) * w0 k - ((h k - μ) * r * g k + bt k) * w1 k)) + (b0 - b1) := by
    rw [Finset.sum_sub_distrib]; ring
  rw [h1]
  simp only [hk]
  rw [Finset.sum_add_distrib, ← Finset.sum_mul, Finset.sum_sub_distrib, ← Finset.mul_sum]
  ring

/-- The first weight of a two-class softmax, shifted by any constant, is the logistic function of the logit difference. -/
theorem softmax_two_fst (a b M : ℝ) :
    Real.exp (a - M) / (Real.exp (a - M) + Real.exp (b - M)) = (1 + Real.exp (-(a - b)))⁻¹ := by
  have ha := Real.exp_pos a
  have hb := Real.exp_pos b
  have hM := Real.exp_pos M
  rw [Real.exp_sub, Real.exp_sub, neg_sub, Real.exp_sub]
  field_simp

/-- The second weight is one minus the first. -/
theorem softmax_two_snd (a b M : ℝ) :
    Real.exp (b - M) / (Real.exp (a - M) + Real.exp (b - M)) = 1 - (1 + Real.exp (-(a - b)))⁻¹ := by
  have ha := Real.exp_pos a
  have hb := Real.exp_pos b
  have hM := Real.exp_pos M
  rw [Real.exp_sub, Real.exp_sub, neg_sub, Real.exp_sub]
  field_simp
  ring

/-- The fused row over the whole joined row equals the reference row, over the reals. -/
theorem fusedR_eq_refRowR (eps : ℝ) (h g bt : Fin 1536 → ℝ) (W : Fin 2 → Fin 1536 → ℝ) (bias : Fin 2 → ℝ)
    (sj mj : ℝ) :
    fusedR eps h g bt W bias sj mj = refRowR 1536 eps h g bt W bias sj mj := by
  have hμ : (∑ k, h k) / 1536 = (∑ k, h k) * (1 / 1536) := by ring
  simp only [fusedR, refRowR]
  rw [softmax_two_fst, softmax_two_snd, logit_diff, var_eq, hμ]
  ring

theorem kernelRow_eq_refRow (s m : Fin 768 → ℝ) (g bt : Fin 1536 → ℝ) (W : Fin 2 → Fin 1536 → ℝ) (bias : Fin 2 → ℝ)
    (e : ℝ) (he : 0 < e) (j : Fin 768) :
    kernelRow (((1 / 1536 : ℝ) : ℝ) : EReal) ((e : ℝ) : EReal)
      (fun k => ((s k : ℝ) : EReal)) (fun k => ((m k : ℝ) : EReal))
      (fun k => ((g ⟨k.val, by omega⟩ : ℝ) : EReal)) (fun k => ((g ⟨768 + k.val, by omega⟩ : ℝ) : EReal))
      (fun k => ((bt ⟨k.val, by omega⟩ : ℝ) : EReal)) (fun k => ((bt ⟨768 + k.val, by omega⟩ : ℝ) : EReal))
      (fun k => ((W 0 ⟨k.val, by omega⟩ : ℝ) : EReal)) (fun k => ((W 0 ⟨768 + k.val, by omega⟩ : ℝ) : EReal))
      (fun k => ((W 1 ⟨k.val, by omega⟩ : ℝ) : EReal)) (fun k => ((W 1 ⟨768 + k.val, by omega⟩ : ℝ) : EReal))
      ((bias 0 : ℝ) : EReal) ((bias 1 : ℝ) : EReal) j
    = refRow 0 ((1536 : ℝ) : EReal) ((e : ℝ) : EReal) ⊥
      (fun k => if hk : k.val < 768 then ((s ⟨k.val, hk⟩ : ℝ) : EReal) else ((m ⟨k.val - 768, by omega⟩ : ℝ) : EReal))
      (fun k => ((g k : ℝ) : EReal)) (fun k => ((bt k : ℝ) : EReal)) (fun c k => ((W c k : ℝ) : EReal)) (fun c => ((bias c : ℝ) : EReal))
      ((s j : ℝ) : EReal) ((m j : ℝ) : EReal) := by
  -- the joined row is a row of coerced reals
  have hh : (fun k : Fin 1536 => if hk : k.val < 768 then ((s ⟨k.val, hk⟩ : ℝ) : EReal)
        else ((m ⟨k.val - 768, by omega⟩ : ℝ) : EReal))
      = fun k => ((joinRow s m k : ℝ) : EReal) := by
    funext k
    unfold joinRow
    split <;> rfl
  rw [hh]
  -- the variance is nonnegative, so both reciprocal square roots are taken at a positive real
  have hpos2 : 0 < (∑ k, (joinRow s m k - (∑ k, joinRow s m k) / 1536)
      * (joinRow s m k - (∑ k, joinRow s m k) / 1536)) / 1536 + e :=
    add_pos_of_nonneg_of_pos (var_nonneg _) he
  have hpos1 : 0 < (((∑ k, s k * s k) + (∑ k, m k * m k)) * (1 / 1536)
      - (((∑ k, s k) + (∑ k, m k)) * (1 / 1536)) * (((∑ k, s k) + (∑ k, m k)) * (1 / 1536))) + e := by
    have hv := var_nonneg (joinRow s m)
    rw [var_eq] at hv
    simp only [sum_halves, joinRow_lo, joinRow_hi] at hv
    exact add_pos_of_nonneg_of_pos hv he
  refine (kernelRow_coe (1 / 1536) e s m
    (fun k => g ⟨k.val, by omega⟩) (fun k => g ⟨768 + k.val, by omega⟩)
    (fun k => bt ⟨k.val, by omega⟩) (fun k => bt ⟨768 + k.val, by omega⟩)
    (fun k => W 0 ⟨k.val, by omega⟩) (fun k => W 0 ⟨768 + k.val, by omega⟩)
    (fun k => W 1 ⟨k.val, by omega⟩) (fun k => W 1 ⟨768 + k.val, by omega⟩)
    (bias 0) (bias 1) j hpos1).trans ?_
  refine Eq.trans ?_ (refRow_coe 1536 e (joinRow s m) g bt W bias (s j) (m j) (by norm_num) hpos2).symm
  rw [kernelRowR_eq_fusedR, fusedR_eq_refRowR]

end Cert.Fusion

end
-- ==== Proof.RefRows.lean ====
/-
  The reference program's result at one index (b, q, j), read as the textbook row function `refRow` of the
  argument arrays: the joined row's mean and variance, the normalised row scaled and shifted, the two logits,
  the softmax shifted by the larger logit, and the blend of the two feature entries.
-/
import proofs.«161193_g12695923327142_feedfinal_59_5_alg».proof.Proof.Rows
import proofs.«161193_g12695923327142_feedfinal_59_5_alg».proof.Proof.Gen.ReferenceIdeal.Read

noncomputable section

namespace Cert.Fusion.Ref

open Idealize.ShloMosaic Idealize.ShloMosaic.ValueIdx Cert.ReferenceIdeal Cert.ReferenceIdeal.Read

/-! ## The arguments, abbreviated -/

/-- The type of the two feature arrays. -/
abbrev Feat : Type := (⟨S4x4096x768, .f32⟩ : BufTy).Contents (Elt Ideal)
/-- The type of the scale and the shift. -/
abbrev Par : Type := (⟨S1536, .f32⟩ : BufTy).Contents (Elt Ideal)
/-- The type of the weight matrix. -/
abbrev Wt : Type := (⟨S2x1536, .f32⟩ : BufTy).Contents (Elt Ideal)
/-- The type of the bias. -/
abbrev Bs : Type := (⟨S2, .f32⟩ : BufTy).Contents (Elt Ideal)

/-- The four literals of the program: zero, the row length 1536, the variance's epsilon, and minus infinity. -/
abbrev cZ : EReal := Ideal.ofBits .f32 0x00000000#32
abbrev cN : EReal := Ideal.ofBits .f32 0x44C00000#32
abbrev cE : EReal := Ideal.ofBits .f32 0x3727C5AC#32
abbrev cI : EReal := Ideal.ofBits .f32 0xFF800000#32

/-- The joined row at (b, q): the first array's row followed by the second's. -/
def hrow (x0 x1 : Feat) (b : Fin 4) (q : Fin 4096) : Fin 1536 → EReal :=
  fun k => if hk : k.val < 768 then x0 (ix3 b q ⟨k.val, hk⟩) else x1 (ix3 b q ⟨k.val - 768, by omega⟩)

/-- The row's mean. -/
def mean (x0 x1 : Feat) (b : Fin 4) (q : Fin 4096) : EReal := Ideal.div (cZ + ∑ k, hrow x0 x1 b q k) cN

/-- The row's variance. -/
def var (x0 x1 : Feat) (b : Fin 4) (q : Fin 4096) : EReal :=
  Ideal.div (cZ + ∑ k, (hrow x0 x1 b q k - mean x0 x1 b q) * (hrow x0 x1 b q k - mean x0 x1 b q)) cN

/-- The reciprocal standard deviation. -/
def rstd (x0 x1 : Feat) (b : Fin 4) (q : Fin 4096) : EReal := Ideal.rsqrt (var x0 x1 b q + cE)

/-- The normalised row, scaled and shifted. -/
def hn (x0 x1 : Feat) (x2 x3 : Par) (b : Fin 4) (q : Fin 4096) : Fin 1536 → EReal :=
  fun k => (hrow x0 x1 b q k - mean x0 x1 b q) * rstd x0 x1 b q * x2 (ix1 k) + x3 (ix1 k)

/-- The two logits. -/
def logit (x0 x1 : Feat) (x2 x3 : Par) (x4 : Wt) (x5 : Bs) (b : Fin 4) (q : Fin 4096) : Fin 2 → EReal :=
  fun c => (∑ k, hn x0 x1 x2 x3 b q k * x4 (ix2 c k)) + x5 (ix1 c)

/-- The larger logit, as the program computes it. -/
def mx (x0 x1 : Feat) (x2 x3 : Par) (x4 : Wt) (x5 : Bs) (b : Fin 4) (q : Fin 4096) : EReal :=
  max cI ((Finset.univ : Finset (Fin 2)).fold max cI (logit x0 x1 x2 x3 x4 x5 b q))

/-- The shifted exponentials. -/
def ex (x0 x1 : Feat) (x2 x3 : Par) (x4 : Wt) (x5 : Bs) (b : Fin 4) (q : Fin 4096) : Fin 2 → EReal :=
  fun c => Ideal.exp (logit x0 x1 x2 x3 x4 x5 b q c - mx x0 x1 x2 x3 x4 x5 b q)

/-- Their sum. -/
def exSum (x0 x1 : Feat) (x2 x3 : Par) (x4 : Wt) (x5 : Bs) (b : Fin 4) (q : Fin 4096) : EReal :=
  cZ + ∑ c, ex x0 x1 x2 x3 x4 x5 b q c

/-! ## Index equations: the composed index functions of the stages, at indices built from coordinates -/

theorem idx_v1 (b : Fin 4) (q : Fin 4096) (k : Fin 1536) : idx_main_v1 (ix2 b q) k = ix3 b q k :=
  funext fun a => Fin.ext (by match a with | ⟨0, _⟩ => rfl | ⟨1, _⟩ => rfl | ⟨2, _⟩ => rfl)
theorem idx_v2 (b : Fin 4) (q : Fin 4096) (o : Fin 1) : idx_main_v2 (ix3 b q o) = ix2 b q :=
  funext fun a => Fin.ext (by match a with | ⟨0, _⟩ => rfl | ⟨1, _⟩ => rfl)
theorem idx_v5 (b : Fin 4) (q : Fin 4096) (k : Fin 1536) : idx_main_v5 (ix3 b q k) = ix3 b q (0 : Fin 1) :=
  funext fun a => Fin.ext (by match a with | ⟨0, _⟩ => rfl | ⟨1, _⟩ => rfl | ⟨2, _⟩ => rfl)
theorem idx_v19_20 (b : Fin 4) (q : Fin 4096) (k : Fin 1536) : idx_main_v19 (idx_main_v20 (ix3 b q k)) = ix1 k :=
  funext fun a => Fin.ext (by match a with | ⟨0, _⟩ => rfl)
theorem lidx_v25 (b : Fin 4) (q : Fin 4096) (c : Fin 2) (k : Fin 1536) : lidx_main_v25 (ix3 b q c) k = ix3 b q k :=
  funext fun a => Fin.ext (by match a with | ⟨0, _⟩ => rfl | ⟨1, _⟩ => rfl | ⟨2, _⟩ => rfl)
theorem ridx_v25 (b : Fin 4) (q : Fin 4096) (c : Fin 2) (k : Fin 1536) : ridx_main_v25 (ix3 b q c) k = ix2 c k :=
  funext fun a => Fin.ext (by match a with | ⟨0, _⟩ => rfl | ⟨1, _⟩ => rfl)
theorem idx_v26_27 (b : Fin 4) (q : Fin 4096) (c : Fin 2) : idx_main_v26 (idx_main_v27 (ix3 b q c)) = ix1 c :=
  funext fun a => Fin.ext (by match a with | ⟨0, _⟩ => rfl)
theorem idx_v33 (b : Fin 4) (q : Fin 4096) (c : Fin 2) : idx_main_v33 (ix3 b q c) = ix3 b q (0 : Fin 1) :=
  funext fun a => Fin.ext (by match a with | ⟨0, _⟩ => rfl | ⟨1, _⟩ => rfl | ⟨2, _⟩ => rfl)
theorem idx_v36 (b : Fin 4) (q : Fin 4096) (c : Fin 2) : idx_main_v36 (ix2 b q) c = ix3 b q c :=
  funext fun a => Fin.ext (by match a with | ⟨0, _⟩ => rfl | ⟨1, _⟩ => rfl | ⟨2, _⟩ => rfl)
theorem idx_v40 (b : Fin 4) (q : Fin 4096) : idx_main_v40 (ix3 b q (0 : Fin 1)) = ix3 b q (0 : Fin 2) :=
  funext fun a => Fin.ext (by match a with | ⟨0, _⟩ => rfl | ⟨1, _⟩ => rfl | ⟨2, _⟩ => rfl)
theorem idx_v43 (b : Fin 4) (q : Fin 4096) : idx_main_v43 (ix3 b q (0 : Fin 1)) = ix3 b q (1 : Fin 2) :=
  funext fun a => Fin.ext (by match a with | ⟨0, _⟩ => rfl | ⟨1, _⟩ => rfl | ⟨2, _⟩ => rfl)
theorem idx_v41 (b : Fin 4) (q : Fin 4096) (j : Fin 768) : idx_main_v41 (ix3 b q j) = ix3 b q (0 : Fin 1) :=
  funext fun a => Fin.ext (by match a with | ⟨0, _⟩ => rfl | ⟨1, _⟩ => rfl | ⟨2, _⟩ => rfl)

/-! ## The joined row: the concatenation read at (b, q, k) -/

theorem v0_at (x0 x1 : Feat) (b : Fin 4) (q : Fin 4096) (k : Fin 1536) :
    val_main_v0 (F := Ideal) x0 x1 (ix3 b q k) = hrow x0 x1 b q k := by
  unfold val_main_v0 hrow
  by_cases hk : k.val < 768
  · rw [dif_pos hk]
    exact concatenate_pair_apply_left (2 : Fin 3) x0 x1 _ (ix3 b q k) rfl (ix3 b q ⟨k.val, hk⟩)
      (fun a => by match a with | ⟨0, _⟩ => rfl | ⟨1, _⟩ => rfl | ⟨2, _⟩ => rfl)
  · rw [dif_neg hk]
    exact concatenate_pair_apply_right (2 : Fin 3) x0 x1 _ (ix3 b q k) rfl rfl (ix3 b q ⟨k.val - 768, by omega⟩)
      (fun a ha => by
        match a, ha with
        | ⟨0, _⟩, _ => rfl
        | ⟨1, _⟩, _ => rfl
        | ⟨2, _⟩, ha => exact absurd rfl ha)
      (by show (k.val - 768) + 768 = k.val; omega)

/-! ## The mean -/

theorem v1_at (x0 x1 : Feat) (b : Fin 4) (q : Fin 4096) :
    val_main_v1 (F := Ideal) x0 x1 (ix2 b q) = cZ + ∑ k, hrow x0 x1 b q k := by
  rw [val_main_v1_apply]
  refine congrArg (_ + ·) (Finset.sum_congr rfl fun k _ => ?_)
  rw [idx_v1, v0_at]

theorem v4_at (x0 x1 : Feat) (b : Fin 4) (q : Fin 4096) :
    val_main_v4 (F := Ideal) x0 x1 (ix3 b q (0 : Fin 1)) = mean x0 x1 b q := by
  rw [val_main_v4_apply, val_main_v2_apply, idx_v2, v1_at, val_main_v3_apply]
  rfl

/-! ## The variance and the reciprocal standard deviation -/

theorem v6_at (x0 x1 : Feat) (b : Fin 4) (q : Fin 4096) (k : Fin 1536) :
    val_main_v6 (F := Ideal) x0 x1 (ix3 b q k) = hrow x0 x1 b q k - mean x0 x1 b q := by
  rw [val_main_v6_apply, val_main_v5_apply, idx_v5, v4_at, v0_at]
  rfl

theorem v8_at (x0 x1 : Feat) (b : Fin 4) (q : Fin 4096) :
    val_main_v8 (F := Ideal) x0 x1 (ix2 b q)
      = cZ + ∑ k, (hrow x0 x1 b q k - mean x0 x1 b q) * (hrow x0 x1 b q k - mean x0 x1 b q) := by
  rw [val_main_v8_apply]
  refine congrArg (_ + ·) (Finset.sum_congr rfl fun k _ => ?_)
  rw [show idx_main_v8 (ix2 b q) k = ix3 b q k from idx_v1 b q k, val_main_v7_apply, v6_at]
  rfl

theorem v16_at (x0 x1 : Feat) (b : Fin 4) (q : Fin 4096) :
    val_main_v16 (F := Ideal) x0 x1 (ix3 b q (0 : Fin 1)) = rstd x0 x1 b q := by
  rw [val_main_v16_apply, val_main_v15_apply, val_main_v11_apply, val_main_v9_apply,
    show idx_main_v9 (ix3 b q (0 : Fin 1)) = ix2 b q from idx_v2 b q 0, v8_at, val_main_v10_apply, val_main_v14_apply]
  rfl

/-! ## The normalised row -/

theorem v24_at (x0 x1 : Feat) (x2 x3 : Par) (b : Fin 4) (q : Fin 4096) (k : Fin 1536) :
    val_main_v24 (F := Ideal) x0 x1 x2 x3 (ix3 b q k) = hn x0 x1 x2 x3 b q k := by
  rw [val_main_v24_apply, val_main_v21_apply, val_main_v18_apply, val_main_v13_apply, val_main_v12_apply,
    show idx_main_v12 (ix3 b q k) = ix3 b q (0 : Fin 1) from idx_v5 b q k, v4_at, v0_at,
    val_main_v17_apply, show idx_main_v17 (ix3 b q k) = ix3 b q (0 : Fin 1) from idx_v5 b q k, v16_at,
    val_main_v20_apply, val_main_v19_apply, idx_v19_20,
    val_main_v23_apply, val_main_v22_apply,
    show idx_main_v22 (idx_main_v23 (ix3 b q k)) = ix1 k from idx_v19_20 b q k]
  rfl

/-! ## The logits -/

theorem v28_at (x0 x1 : Feat) (x2 x3 : Par) (x4 : Wt) (x5 : Bs) (b : Fin 4) (q : Fin 4096) (c : Fin 2) :
    val_main_v28 (F := Ideal) x0 x1 x2 x3 x4 x5 (ix3 b q c) = logit x0 x1 x2 x3 x4 x5 b q c := by
  rw [val_main_v28_apply, val_main_v25_apply, val_main_v27_apply, val_main_v26_apply, idx_v26_27]
  unfold logit
  refine congrArg (· + _) (Finset.sum_congr rfl fun k _ => ?_)
  rw [lidx_v25, ridx_v25, v24_at]

/-! ## The larger logit: the fold of the maximum over the two classes -/

/-- The reduced index (b, q) with class `c` put back is (b, q, c). -/
theorem lift_v29 (h : S4x4096x2.Reduces [2] S4x4096) (b : Fin 4) (q : Fin 4096) (c : Fin (S4x4096x2.size 2)) :
    h.lift (ix2 b q) c = ix3 b q (⟨c.val, c.isLt⟩ : Fin 2) := by
  funext a; apply Fin.ext
  fin_cases a <;> rfl

theorem v29_at (x0 x1 : Feat) (x2 x3 : Par) (x4 : Wt) (x5 : Bs) (b : Fin 4) (q : Fin 4096) :
    val_main_v29 (F := Ideal) x0 x1 x2 x3 x4 x5 (ix2 b q)
      = (Finset.univ : Finset (Fin 2)).fold max cI (logit x0 x1 x2 x3 x4 x5 b q) := by
  have h : S4x4096x2.Reduces [2] S4x4096 := by decide
  unfold val_main_v29
  rw [Host.reduce_eq_fold_single FloatOps.maximumf _ _ Facts₀.reducesTo_S4x4096x2_S4x4096_d2 h Facts₀.h_S_]
  have hf : (val_main_v28 (F := Ideal) x0 x1 x2 x3 x4 x5 ∘ h.lift (ix2 b q)) = logit x0 x1 x2 x3 x4 x5 b q :=
    funext fun c => by
      show val_main_v28 (F := Ideal) x0 x1 x2 x3 x4 x5 (h.lift (ix2 b q) c) = _
      rw [lift_v29, v28_at]
      rfl
  rw [hf]
  rfl

theorem v31_at (x0 x1 : Feat) (x2 x3 : Par) (x4 : Wt) (x5 : Bs) (b : Fin 4) (q : Fin 4096) :
    val_main_v31 (F := Ideal) x0 x1 x2 x3 x4 x5 (ix2 b q) = mx x0 x1 x2 x3 x4 x5 b q := by
  rw [val_main_v31_apply, v29_at, val_main_v30_apply]
  rfl

/-! ## The shifted exponentials, their sum, and the two weights -/

theorem v35_at (x0 x1 : Feat) (x2 x3 : Par) (x4 : Wt) (x5 : Bs) (b : Fin 4) (q : Fin 4096) (c : Fin 2) :
    val_main_v35 (F := Ideal) x0 x1 x2 x3 x4 x5 (ix3 b q c) = ex x0 x1 x2 x3 x4 x5 b q c := by
  rw [val_main_v35_apply, val_main_v34_apply, v28_at, val_main_v33_apply, idx_v33, val_main_v32_apply,
    show idx_main_v32 (ix3 b q (0 : Fin 1)) = ix2 b q from idx_v2 b q 0, v31_at]
  rfl

theorem v36_at (x0 x1 : Feat) (x2 x3 : Par) (x4 : Wt) (x5 : Bs) (b : Fin 4) (q : Fin 4096) :
    val_main_v36 (F := Ideal) x0 x1 x2 x3 x4 x5 (ix2 b q) = exSum x0 x1 x2 x3 x4 x5 b q := by
  rw [val_main_v36_apply]
  unfold exSum
  refine congrArg (_ + ·) (Finset.sum_congr rfl fun c _ => ?_)
  rw [idx_v36, v35_at]

theorem v39_at (x0 x1 : Feat) (x2 x3 : Par) (x4 : Wt) (x5 : Bs) (b : Fin 4) (q : Fin 4096) (c : Fin 2) :
    val_main_v39 (F := Ideal) x0 x1 x2 x3 x4 x5 (ix3 b q c)
      = Ideal.div (ex x0 x1 x2 x3 x4 x5 b q c) (exSum x0 x1 x2 x3 x4 x5 b q) := by
  rw [val_main_v39_apply, v35_at, val_main_v38_apply,
    show idx_main_v38 (ix3 b q c) = ix3 b q (0 : Fin 1) from idx_v33 b q c, val_main_v37_apply,
    show idx_main_v37 (ix3 b q (0 : Fin 1)) = ix2 b q from idx_v2 b q 0, v36_at]
  rfl

/-! ## The result -/

theorem v46_at (x0 x1 : Feat) (x2 x3 : Par) (x4 : Wt) (x5 : Bs) (b : Fin 4) (q : Fin 4096) (j : Fin 768) :
    val_main_v46 (F := Ideal) x0 x1 x2 x3 x4 x5 (ix3 b q j)
      = Ideal.div (ex x0 x1 x2 x3 x4 x5 b q 0) (exSum x0 x1 x2 x3 x4 x5 b q) * x0 (ix3 b q j)
        + Ideal.div (ex x0 x1 x2 x3 x4 x5 b q 1) (exSum x0 x1 x2 x3 x4 x5 b q) * x1 (ix3 b q j) := by
  rw [val_main_v46_apply, val_main_v42_apply, val_main_v45_apply, val_main_v41_apply, val_main_v44_apply,
    show idx_main_v44 (ix3 b q j) = ix3 b q (0 : Fin 1) from idx_v41 b q j, idx_v41,
    val_main_v40_apply, val_main_v43_apply, idx_v40, idx_v43, v39_at, v39_at]
  rfl

theorem ref_at (x0 x1 : (⟨S4x4096x768, .f32⟩ : BufTy).Contents (Elt Ideal)) (x2 x3 : (⟨S1536, .f32⟩ : BufTy).Contents (Elt Ideal))
    (x4 : (⟨S2x1536, .f32⟩ : BufTy).Contents (Elt Ideal)) (x5 : (⟨S2, .f32⟩ : BufTy).Contents (Elt Ideal))
    (b : Fin 4) (q : Fin 4096) (j : Fin 768) :
    val_main_v46 (F := Ideal) x0 x1 x2 x3 x4 x5 (ix3 b q j)
      = Cert.Fusion.refRow (Ideal.ofBits .f32 0x00000000#32) (Ideal.ofBits .f32 0x44C00000#32) (Ideal.ofBits .f32 0x3727C5AC#32) (Ideal.ofBits .f32 0xFF800000#32)
          (fun k => if hk : k.val < 768 then x0 (ix3 b q ⟨k.val, hk⟩) else x1 (ix3 b q ⟨k.val - 768, by omega⟩))
          (fun k => x2 (ix1 k)) (fun k => x3 (ix1 k)) (fun c k => x4 (ix2 c k)) (fun c => x5 (ix1 c))
          (x0 (ix3 b q j)) (x1 (ix3 b q j)) := by
  rw [v46_at]
  rfl

end Cert.Fusion.Ref

end
-- ==== Proof.Consts.lean ====
/-
  The extended reals that the programs' float literals denote, and the value of the fused program's one named
  constant.

  A 32-bit pattern with sign bit `0`, exponent field `E` (neither all zeros nor all ones) and significand field `T`
  denotes the real `(2^23 + T) · 2^(E − 127 − 23)`:
  * `0x00000000` is `+0`;
  * `0x44C00000` has `E = 137`, `T = 2^22`: `(2^23 + 2^22) · 2^(−13) = 1536`;
  * `0xFF800000` has the sign bit set, `E` all ones and `T = 0`: `−∞`;
  * `0x3727C5AC` has `E = 110`, `T = 2606508`: `10995116 · 2^(−40)`, a positive real (about `10^(−5)`; only its
    positivity is used).
  The named reciprocal of the row length is the rational `1/1536` by the table of named values.
-/
import proofs.«161193_g12695923327142_feedfinal_59_5_alg».proof.KernelIdeal
import Idealize.ShloMosaic.PureOps.Ideal
import Idealize.ShloMosaic.PureOps.IdealRules

noncomputable section

namespace Cert.Fusion

open Idealize.ShloMosaic

/-- `+0.0` denotes `0`. -/
theorem ofBits_zero : Ideal.ofBits .f32 0x00000000#32 = (0 : EReal) := by
  simp [Ideal.ofBits, Ideal.ieee]

/-- `1536.0`, the length of the joined row, denotes the real `1536`. -/
theorem ofBits_len : Ideal.ofBits .f32 0x44C00000#32 = ((1536 : ℝ) : EReal) := by
  simp [Ideal.ofBits, Ideal.ieee, -EReal.coe_mul]; norm_num

/-- The pattern of `−∞` denotes `⊥`. -/
theorem ofBits_ninf : Ideal.ofBits .f32 0xFF800000#32 = (⊥ : EReal) := by
  simp [Ideal.ofBits, Ideal.ieee]

/-- The stabiliser added to the variance denotes a positive real. -/
theorem ofBits_eps : ∃ e : ℝ, 0 < e ∧ Ideal.ofBits .f32 0x3727C5AC#32 = ((e : ℝ) : EReal) := by
  have h : Ideal.ofBits .f32 0x3727C5AC#32 = (((10995116 : ℝ) * (2 : ℝ) ^ (-40 : ℤ) : ℝ) : EReal) := by
    simp [Ideal.ofBits, Ideal.ieee, -EReal.coe_mul]
  exact ⟨_, by positivity, h⟩

/-- The named reciprocal of the row length is the rational `1/1536`. -/
theorem inv_len : Named.named (F := Ideal) Cert.KernelIdeal.κ "inv_1536" (φ := .f32) 0x3A2AAAAB#32
    = ((1 / 1536 : ℝ) : EReal) :=
  IdealRules.named_const.ideal_named_scalar _ _ _ _ rfl

end Cert.Fusion

end
-- ==== Proof.Bridge.lean ====
/-
  The two programs' results are one function of the arguments, entry by entry, wherever every argument entry is a
  real.

  Entry `(b, q, j)` of the fused result is the fused row of row `(b, q)` of the two feature arrays and of the
  parameters' halves; the same entry of the reference result is the reference row of the same data.  The literals
  denote `0`, `1536`, `−∞` and a positive real, the named reciprocal is `1/1536`, and over finite reals the fused row
  equals the reference row.
-/
import proofs.«161193_g12695923327142_feedfinal_59_5_alg».proof.Proof.Fused
import proofs.«161193_g12695923327142_feedfinal_59_5_alg».proof.Proof.RowAlgebra
import proofs.«161193_g12695923327142_feedfinal_59_5_alg».proof.Proof.RefRows
import proofs.«161193_g12695923327142_feedfinal_59_5_alg».proof.Proof.Consts

noncomputable section

namespace Cert.Fusion

open Idealize.ShloMosaic Idealize.ShloMosaic.ValueIdx

/-- Where every argument entry is a real, entry `(b, q, j)` of the fused result is that entry of the reference result. -/
theorem fused_eq_ref (a0 a1 : (⟨Cert.ReferenceIdeal.S4x4096x768, .f32⟩ : BufTy).Contents (Elt Ideal))
    (a2 a3 : (⟨Cert.ReferenceIdeal.S1536, .f32⟩ : BufTy).Contents (Elt Ideal))
    (a4 : (⟨Cert.ReferenceIdeal.S2x1536, .f32⟩ : BufTy).Contents (Elt Ideal))
    (a5 : (⟨Cert.ReferenceIdeal.S2, .f32⟩ : BufTy).Contents (Elt Ideal))
    (h0 : ∀ i, ∃ r : ℝ, a0 i = ((r : ℝ) : EReal)) (h1 : ∀ i, ∃ r : ℝ, a1 i = ((r : ℝ) : EReal))
    (h2 : ∀ i, ∃ r : ℝ, a2 i = ((r : ℝ) : EReal)) (h3 : ∀ i, ∃ r : ℝ, a3 i = ((r : ℝ) : EReal))
    (h4 : ∀ i, ∃ r : ℝ, a4 i = ((r : ℝ) : EReal)) (h5 : ∀ i, ∃ r : ℝ, a5 i = ((r : ℝ) : EReal))
    (b : Fin 4) (q : Fin 4096) (j : Fin 768) :
    fused a0 a1 a2 a3 a4 a5 b q j
      = Cert.ReferenceIdeal.Read.val_main_v46 (F := Ideal) a0 a1 a2 a3 a4 a5 (ix3 b q j) := by
  rw [Cert.Fusion.Ref.ref_at]
  -- each argument array is a family of coerced reals
  choose r0 hr0 using h0
  choose r1 hr1 using h1
  choose r2 hr2 using h2
  choose r3 hr3 using h3
  choose r4 hr4 using h4
  choose r5 hr5 using h5
  obtain rfl : a0 = fun i => ((r0 i : ℝ) : EReal) := funext hr0
  obtain rfl : a1 = fun i => ((r1 i : ℝ) : EReal) := funext hr1
  obtain rfl : a2 = fun i => ((r2 i : ℝ) : EReal) := funext hr2
  obtain rfl : a3 = fun i => ((r3 i : ℝ) : EReal) := funext hr3
  obtain rfl : a4 = fun i => ((r4 i : ℝ) : EReal) := funext hr4
  obtain rfl : a5 = fun i => ((r5 i : ℝ) : EReal) := funext hr5
  -- the literals and the named reciprocal
  obtain ⟨e, he, hε⟩ := ofBits_eps
  unfold fused
  rw [ofBits_zero, ofBits_len, ofBits_ninf, inv_len, hε]
  exact kernelRow_eq_refRow (fun k => r0 (ix3 b q k)) (fun k => r1 (ix3 b q k)) (fun k => r2 (ix1 k))
    (fun k => r3 (ix1 k)) (fun c k => r4 (ix2 c k)) (fun c => r5 (ix1 c)) e he j

end Cert.Fusion

end
-- ==== Proof.Finite.lean ====
/-
  From the precondition to "every entry of every argument is a real".

  The precondition is the conjunction of six statements "every entry x of the array satisfies |x| < +∞", each
  computed as an all-reduce by `and` of the entrywise comparison.  On the extended reals |x| is max x (−x) and the
  word 0x7F800000 is ⊤, so |x| < ⊤ excludes x = ⊥ and x = ⊤: the entry is a coerced real.
-/
import proofs.«161193_g12695923327142_feedfinal_59_5_alg».proof.Pre_finite_inputs
import Idealize.ShloMosaic.Lib.ReduceAll
import Idealize.ShloMosaic.Lib.ValueIdx
import Idealize.ShloMosaic.PureOps.Ideal

noncomputable section

namespace Cert.Fusion

open Idealize.ShloMosaic Idealize.ShloMosaic.ValueIdx Cert.Pre_finite_inputs

/-- The scalar shape has one index. -/
instance subsingleton_scalarIdx : Subsingleton S_.Idx := ⟨fun a b => funext fun d => d.elim0⟩

/-- The word 0x7F800000 is +∞. -/
theorem ofBits_inf : Ideal.ofBits .f32 0x7F800000#32 = (⊤ : EReal) := by
  simp [Ideal.ofBits, Ideal.ieee]

/-- An extended real whose absolute value max x (−x) is below +∞ is a real. -/
theorem real_of_abs_lt (x : EReal)
    (h : Ideal.cmp .olt (max x (-x)) (Ideal.ofBits .f32 0x7F800000#32) = 1#1) : ∃ r : ℝ, x = ((r : ℝ) : EReal) := by
  rw [ofBits_inf] at h
  induction x using EReal.rec with
  | bot => exfalso; simp [Ideal.cmp] at h
  | top => exfalso; simp [Ideal.cmp] at h
  | coe r => exact ⟨r, rfl⟩

/-- The all-reduce of |x| < +∞ over an array of any shape is 1 only if every entry is a real. -/
theorem real_of_all {s : Shape} {axes : List (Fin s.rank)} (x : FVec Ideal s .f32)
    (bc : S_.BroadcastsInDim s (![] : Fin 0 → Fin s.rank)) (hr : s.ReducesTo axes S_) (hu : 0 < S_.numel)
    (e : Host.reduce IntOp.andi (cmpf .olt (Host.absf x) (broadcastInDim s ![] bc (constant S_ .f32 0x7F800000#32)))
          (constantI S_ 1 1#1) hr hu ix0 = 1#1) (i : s.Idx) : ∃ r : ℝ, x i = ((r : ℝ) : EReal) :=
  real_of_abs_lt (x i) (Host.reduce_andi_all _ _ hr hu ix0 e i)

theorem finite_of_pre [Cert.Pre_finite_inputs.Facts] (a0 a1 : FVec Ideal S4x4096x768 .f32) (a2 a3 : FVec Ideal S1536 .f32)
    (a4 : FVec Ideal S2x1536 .f32) (a5 : FVec Ideal S2 .f32)
    (h : Cert.Pre_finite_inputs.fn (F := Ideal) a0 a1 a2 a3 a4 a5 = fun _ => 1#1) :
    (∀ i, ∃ r : ℝ, a0 i = ((r : ℝ) : EReal)) ∧ (∀ i, ∃ r : ℝ, a1 i = ((r : ℝ) : EReal)) ∧ (∀ i, ∃ r : ℝ, a2 i = ((r : ℝ) : EReal))
    ∧ (∀ i, ∃ r : ℝ, a3 i = ((r : ℝ) : EReal)) ∧ (∀ i, ∃ r : ℝ, a4 i = ((r : ℝ) : EReal)) ∧ (∀ i, ∃ r : ℝ, a5 i = ((r : ℝ) : EReal)) := by
  have h0 := congrFun h ix0
  dsimp only [fn, fn_part1, andi] at h0
  simp only [IntOp.andi_eq_one] at h0
  obtain ⟨⟨⟨⟨⟨e0, e1⟩, e2⟩, e3⟩, e4⟩, e5⟩ := h0
  exact ⟨real_of_all a0 _ _ _ e0, real_of_all a1 _ _ _ e1, real_of_all a2 _ _ _ e2, real_of_all a3 _ _ _ e3,
    real_of_all a4 _ _ _ e4, real_of_all a5 _ _ _ e5⟩

end Cert.Fusion

end
-- ==== Proof.lean ====
/-
  A fused "concatenate, layer-normalise, two-class gate, blend" kernel against its textbook reference, over the
  extended reals.

  For each of the 4 × 4096 rows, with `s` and `m` the row's 768 entries in the two feature arrays and `h = s ++ m`:
  the reference normalises `h` (mean and variance by two passes, a quotient by the length 1536, `rsqrt (var + ε)`),
  scales and shifts it, takes the two logits against the [2, 1536] gate weights, a softmax shifted by the larger
  logit, and blends `w₀ · s + w₁ · m`.  The kernel never forms `h` or the logits: it takes the six lane sums of the
  two halves (sum, sum of squares, sum against the direction `g ⊙ (W₀ − W₁)`), gets mean and variance from them with
  the reciprocal `1/1536` of the length, the logit DIFFERENCE as an affine function of the normalised row, its
  logistic weight `σ`, and stores `m + σ · (s − m)`.

  The two agree wherever every input entry is a real, which is what the precondition says:
  * `(∑ (h − μ)²)/n = (∑ h²)/n − μ²`, so both take `rsqrt` of the same positive real;
  * the difference of the two logits is affine in the normalised row, so only the direction, its sum and one
    constant enter;
  * a two-class softmax is the logistic function of the logit difference, and `w₁ = 1 − w₀`;
  * the kernel's reciprocal of the length is named `1/1536`, the quotient by 1536 is the product with it.
  Distributivity is used throughout, so finiteness of the inputs is needed and is used.

  The kernel side: each of the eight grid points writes back 2048 rows, each row a function of the same row of the
  feature arrays, so the blocks are blocks of one whole-array function (module KernelBlocks over KernelPayload and
  KernelOut); reshapes before and after the region keep row-major positions (KernelRun).  The reference side: its
  generated run, read one operation at a time (RefRows).  The row identity over the reals is RowAlgebra; Bridge joins
  the two at an index; Finite reads the precondition; Consts the literals.
-/
import proofs.«161193_g12695923327142_feedfinal_59_5_alg».proof.Defs
import proofs.«161193_g12695923327142_feedfinal_59_5_alg».proof.Proof.Gen.Kernel
import proofs.«161193_g12695923327142_feedfinal_59_5_alg».proof.Proof.Gen.Kernel.Skeleton
import proofs.«161193_g12695923327142_feedfinal_59_5_alg».proof.Proof.Gen.Kernel.Launch
import proofs.«161193_g12695923327142_feedfinal_59_5_alg».proof.Proof.Gen.Kernel.Points
import proofs.«161193_g12695923327142_feedfinal_59_5_alg».proof.Proof.Gen.Kernel.Frame
import proofs.«161193_g12695923327142_feedfinal_59_5_alg».proof.Proof.Gen.KernelIdeal
import proofs.«161193_g12695923327142_feedfinal_59_5_alg».proof.Proof.Gen.KernelIdeal.Skeleton
import proofs.«161193_g12695923327142_feedfinal_59_5_alg».proof.Proof.Gen.KernelIdeal.Launch
import proofs.«161193_g12695923327142_feedfinal_59_5_alg».proof.Proof.Gen.KernelIdeal.Points
import proofs.«161193_g12695923327142_feedfinal_59_5_alg».proof.Proof.Gen.KernelIdeal.Frame
import proofs.«161193_g12695923327142_feedfinal_59_5_alg».proof.Proof.Gen.ReferenceIdeal
import proofs.«161193_g12695923327142_feedfinal_59_5_alg».proof.Proof.Gen.Pre_finite_inputs
import proofs.«161193_g12695923327142_feedfinal_59_5_alg».proof.Proof.Gen.ReferenceIdeal.Run
import proofs.«161193_g12695923327142_feedfinal_59_5_alg».proof.Proof.Gen.ReferenceIdeal.Read
import proofs.«161193_g12695923327142_feedfinal_59_5_alg».proof.Proof.KernelRun
import proofs.«161193_g12695923327142_feedfinal_59_5_alg».proof.Proof.Bridge
import proofs.«161193_g12695923327142_feedfinal_59_5_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and keeps its arguments. -/
theorem frame_k : @Cert.frame_Kernel Cert.Kernel.Gen.facts Cert.Pre_finite_inputs.Gen.facts :=
  fun m ρ _ => Cert.Kernel.Gen.frame m ρ

/-- The idealized kernel runs and keeps its arguments. -/
theorem frame_ki : @Cert.frame_KernelIdeal Cert.KernelIdeal.Gen.facts Cert.Pre_finite_inputs.Gen.facts :=
  fun m ρ _ => Cert.KernelIdeal.Gen.frame m ρ

/-- The idealized reference runs and keeps its arguments: its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- The kernel's folded reciprocal of the joined length is named `1/1536`, at both of its two uses. -/
theorem preserves : Cert.preserves_Kernel_KernelIdeal :=
  ⟨IdealRules.named_const.statement Cert.KernelIdeal.κ "inv_1536" .f32 0x3A2AAAAB#32 ((1 / 1536 : ℝ) : EReal) rfl,
   IdealRules.named_const.statement Cert.KernelIdeal.κ "inv_1536" .f32 0x3A2AAAAB#32 ((1 / 1536 : ℝ) : EReal) rfl⟩

/-- From memories that agree on the six arguments, every entry of which is a real, both programs end with the
    result at the fused function of the arguments: the kernel by its run read as a value, the reference because its
    last stage is the textbook row, which over reals is the fused row. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.Fusion.Kernel.fusedArr m c, Cert.Fusion.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v46_eq]
  obtain ⟨a0, a1, a2, a3, a4, a5⟩ := hagree c
  rw [a0, a1, a2, a3, a4, a5]
  letI : Cert.Pre_finite_inputs.Facts := Cert.Pre_finite_inputs.Gen.facts
  obtain ⟨f0, f1, f2, f3, f4, f5⟩ := Cert.Fusion.finite_of_pre _ _ _ _ _ _ (hpre c)
  show (Cert.ReferenceIdeal.Read.val_main_v46 (F := Ideal) _ _ _ _ _ _ : Cert.KernelIdeal.S4x4096x768.Idx → EReal)
    = Cert.Fusion.Kernel.fusedArr m c
  funext i
  obtain ⟨b, q, j, rfl⟩ : ∃ (b : Fin 4) (q : Fin 4096) (j : Fin 768), i = ix3 b q j := ⟨i 0, i 1, i 2, eq_ix3 i⟩
  exact (Cert.Fusion.fused_eq_ref _ _ _ _ _ _ f0 f1 f2 f3 f4 f5 b q j).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
